-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part5 {F : FTy → Type} [FloatOps F] (main_arg18 : FVec F S2048 .f32) (main_v83 : IVec S_ 1) (main_v84 : FVec F S2048x2048 .f32) (main_cst_32 : FVec F S_ .f32) : IVec S_ 1 :=
  let main_v85 : FVec F S2048x2048 .f32 := broadcastInDim S2048x2048 ![] bcast_S_S2048x2048 main_cst_32
  let main_v86 : IVec S2048x2048 1 := cmpf .olt main_v84 main_v85
  let main_c_33 : IVec S_ 1 := constantI S_ 1 1#1
  let main_v87 : IVec S_ 1 := (fun x v => Host.reduce IntOp.andi x v reducesTo_S2048x2048_S_d0_1 h_S_) main_v86 main_c_33
  let main_v88 : IVec S_ 1 := andi main_v83 main_v87
  let main_v89 : FVec F S2048 .f32 := Host.absf main_arg18
  let main_cst_34 : FVec F S_ .f32 := constant S_ .f32 0x7F800000#32
  let main_v90 : FVec F S2048 .f32 := broadcastInDim S2048 ![] bcast_S_S2048 main_cst_34
  let main_v91 : IVec S2048 1 := cmpf .olt main_v89 main_v90
  let main_c_35 : IVec S_ 1 := constantI S_ 1 1#1
  let main_v92 : IVec S_ 1 := (fun x v => Host.reduce IntOp.andi x v reducesTo_S2048_S_d0 h_S_) main_v91 main_c_35
  let main_v93 : IVec S_ 1 := andi main_v88 main_v92
  main_v93

def fn_part4 {F : FTy → Type} [FloatOps F] (main_arg14 : FVec F S2048 .f32) (main_arg15 : FVec F S2048x2048 .f32) (main_arg16 : FVec F S2048 .f32) (main_arg17 : FVec F S2048x2048 .f32) (main_arg18 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048x2048 .f32 := Host.absf main_arg15
  let main_cst_28 : FVec F S_ .f32 := constant S_ .f32 0x7F800000#32
  let main_v75 : FVec F S2048x2048 .f32 := broadcastInDim S2048x2048 ![] bcast_S_S2048x2048 main_cst_28
  let main_v76 : IVec S2048x2048 1 := cmpf .olt main_v74 main_v75
  let main_c_29 : IVec S_ 1 := constantI S_ 1 1#1
  let main_v77 : IVec S_ 1 := (fun x v => Host.reduce IntOp.andi x v reducesTo_S2048x2048_S_d0_1 h_S_) main_v76 main_c_29
  let main_v78 : IVec S_ 1 := andi main_v73 main_v77
  let main_v79 : FVec F S2048 .f32 := Host.absf main_arg16
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  let main_v84 : FVec F S2048x2048 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_arg15 main_arg16 main_arg17 main_arg18 main_v63 main_v67

def fn_part2 {F : FTy → Type} [FloatOps F] (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_arg16 main_arg17 main_arg18 main_v48 main_v49 main_v50

def fn_part1 {F : FTy → Type} [FloatOps F] (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S4096x2048 .f32) (main_arg1 : FVec F S4096x2048 .f32) (main_arg2 : FVec F S4096x2048 .f32) (main_arg3 : FVec F S2048x2048 .f32) (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S4096x128 : Shape := ⟨2, ![4096, 128]⟩
abbrev S256x128 : Shape := ⟨2, ![256, 128]⟩
abbrev S1x256 : Shape := ⟨2, ![1, 256]⟩
abbrev S4096x256 : Shape := ⟨2, ![4096, 256]⟩
abbrev S4x4096x256 : Shape := ⟨3, ![4, 4096, 256]⟩
abbrev S1x4096x256 : Shape := ⟨3, ![1, 4096, 256]⟩

abbrev nBuf : Space → Nat
  | .hbm => 29
  | .vmem => 35
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S2048x2048, .f32⟩
  | .hbm, ⟨18, _⟩ => ⟨S2048, .f32⟩
  | .hbm, ⟨19, _⟩ => ⟨S2048, .f32⟩
  | .hbm, ⟨20, _⟩ => ⟨S1x2048, .f32⟩
  | .hbm, ⟨21, _⟩ => ⟨S2048, .f32⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S4096x256, .f32⟩
  | .local _ .vmem, ⟨29, _⟩ => ⟨S4096x256, .f32⟩
  | .local _ .vmem, ⟨30, _⟩ => ⟨S4096x256, .f32⟩
  | .local _ .vmem, ⟨31, _⟩ => ⟨S4096x256, .f32⟩
  | .local _ .vmem, ⟨32, _⟩ => ⟨S4096x256, .f32⟩
  | .local _ .vmem, ⟨33, _⟩ => ⟨S4096x256, .f32⟩
  | .local _ .vmem, ⟨34, _⟩ => ⟨S4x4096x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8_0 : Ref sig .tc := ⟨.hbm, 27, rfl⟩
abbrev main_v8_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v59 : BitVec 1 := Scalar.cmpi .eq arg1 c15_i32
  let v60 : BitVec 32 := Scalar.extui v59
  let c0_i32_48 : BitVec 32 := 0#32
  let v61 : BitVec 1 := Scalar.cmpi .ne v60 c0_i32_48
  v61

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S4096x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S4096x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S4096x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

class Facts₀ : Prop where
  shapeCasts_S2048_S1x2048 : S2048.ShapeCasts S1x2048
  inb_S4x4096x256_S4x4096x256_0_0_0 : ∀ a, (![0, 0, 0] : Fin 3 → Nat) a + S4x4096x256.size a ≤ S4x4096x256.size a
  h_S4x4096x256 : 0 < S4x4096x256.numel
  shapeCasts_S4x4096x256_S4x4096x256 : S4x4096x256.ShapeCasts S4x4096x256
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S4x4096x256_S1x4096x256_0_0_0 : ∀ a, (![0, 0, 0] : Fin 3 → Nat) a + S1x4096x256.size a ≤ S4x4096x256.size a
  h_S1x4096x256 : 0 < S1x4096x256.numel
  shapeCasts_S1x4096x256_S4096x256 : S1x4096x256.ShapeCasts S4096x256
  shapeCasts_S4096x256_S1x4096x256 : S4096x256.ShapeCasts S1x4096x256
  inb_S4x4096x256_S1x4096x256_1_0_0 : ∀ a, (![1, 0, 0] : Fin 3 → Nat) a + S1x4096x256.size a ≤ S4x4096x256.size a
  inb_S4x4096x256_S1x4096x256_2_0_0 : ∀ a, (![2, 0, 0] : Fin 3 → Nat) a + S1x4096x256.size a ≤ S4x4096x256.size a
  inb_S4x4096x256_S1x4096x256_3_0_0 : ∀ a, (![3, 0, 0] : Fin 3 → Nat) a + S1x4096x256.size a ≤ S4x4096x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  dot_S4096x128_S256x128_S4096x256_1_1_0_0_n_n_wf : DotDims.WF S4096x128 S256x128 S4096x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x2048.size a
  hwx0_0 : ∀ i : grid0.Coords, EltTy.bits .f32 = 32 ∨ (Rect.block (s := S4096x2048) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x2048.size a
  hwx0_1 : ∀ i : grid0.Coords, EltTy.bits .f32 = 32 ∨ (Rect.block (s := S4096x2048) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S2048x2048.size a
  hwx0_2 : ∀ i : grid0.Coords, EltTy.bits .f32 = 32 ∨ (Rect.block (s := S2048x2048) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S2048x2048.size a
  hwx0_3 : ∀ i : grid0.Coords, EltTy.bits .f32 = 32 ∨ (Rect.block (s := S2048x2048) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S2048x2048.size a
  hwx0_4 : ∀ i : grid0.Coords, EltTy.bits .f32 = 32 ∨ (Rect.block (s := S2048x2048) S256x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S2048x2048.size a
  hwx0_5 : ∀ i : grid0.Coords, EltTy.bits .f32 = 32 ∨ (Rect.block (s := S2048x2048) S256x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S2048x2048.size a
  hwx0_6 : ∀ i : grid0.Coords, EltTy.bits .f32 = 32 ∨ (Rect.block (s := S2048x2048) S256x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S2048x2048.size a
  hwx0_7 : ∀ i : grid0.Coords, EltTy.bits .f32 = 32 ∨ (Rect.block (s := S2048x2048) S256x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S2048x2048.size a
  hwx0_8 : ∀ i : grid0.Coords, EltTy.bits .f32 = 32 ∨ (Rect.block (s := S2048x2048) S256x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S2048x2048.size a
  hwx0_9 : ∀ i : grid0.Coords, EltTy.bits .f32 = 32 ∨ (Rect.block (s := S2048x2048) S256x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x2048.size a
  hwx0_10 : ∀ i : grid0.Coords, EltTy.bits .f32 = 32 ∨ (Rect.block (s := S1x2048) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x2048.size a
  hwx0_11 : ∀ i : grid0.Coords, EltTy.bits .f32 = 32 ∨ (Rect.block (s := S1x2048) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x2048.size a
  hwx0_12 : ∀ i : grid0.Coords, EltTy.bits .f32 = 32 ∨ (Rect.block (s := S1x2048) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x2048.size a
  hwx0_13 : ∀ i : grid0.Coords, EltTy.bits .f32 = 32 ∨ (Rect.block (s := S1x2048) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S4096x256.size a ≤ S4096x2048.size a
  hwx0_14 : ∀ i : grid0.Coords, EltTy.bits .f32 = 32 ∨ (Rect.block (s := S4096x2048) S4096x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S4096x256.size a ≤ S4096x2048.size a
  hwx0_15 : ∀ i : grid0.Coords, EltTy.bits .f32 = 32 ∨ (Rect.block (s := S4096x2048) S4096x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S4096x256.size a ≤ S4096x2048.size a
  hwx0_16 : ∀ i : grid0.Coords, EltTy.bits .f32 = 32 ∨ (Rect.block (s := S4096x2048) S4096x256.size (cc0_transform_16 i) (hinb0_16 i)).WholeWords (EltTy.packing .f32)

variable [Facts₀]

def dot_S4096x128_S256x128_S4096x256_1_1_0_0_n_n : DotDims S4096x128 S256x128 S4096x256 where
  lhsContracting := [1]
  rhsContracting := [1]
  lhsNonContracting := [0]
  rhsNonContracting := [0]
  lhsBatch := []
  rhsBatch := []
  wf := dot_S4096x128_S256x128_S4096x256_1_1_0_0_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S256x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg11) S256x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg15) S256x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S256x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg13) S256x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg17) S256x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v1) S1x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v3) S1x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v7) S1x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg2) S4096x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v8_0) S4096x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v8_1) S4096x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev idle0 : Fin 17 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k0_cond2 i == 1#1) | 16 => fun i => !(k0_cond2 i == 1#1) | ⟨_ + 17, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

abbrev nBuf : Space → Nat
  | .hbm => 93
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S2048x2048, .f32⟩
  | .hbm, ⟨18, _⟩ => ⟨S2048, .f32⟩
  | .hbm, ⟨19, _⟩ => ⟨S2048x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S2048x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S2048x2048, .f32⟩
  | .hbm, ⟨39, _⟩ => ⟨S4096x2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S2048x2048, .f32⟩
  | .hbm, ⟨44, _⟩ => ⟨S4096x2048, .f32⟩
  | .hbm, ⟨45, _⟩ => ⟨S1x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S4096x2048, .f32⟩
  | .hbm, ⟨56, _⟩ => ⟨S4096x2048, .f32⟩
  | .hbm, ⟨57, _⟩ => ⟨S2048x2048, .f32⟩
  | .hbm, ⟨58, _⟩ => ⟨S4096x2048, .f32⟩
  | .hbm, ⟨59, _⟩ => ⟨S1x2048, .f32⟩
  | .hbm, ⟨60, _⟩ => ⟨S4096x2048, .f32⟩
  | .hbm, ⟨61, _⟩ => ⟨S4096x2048, .f32⟩
  | .hbm, ⟨62, _⟩ => ⟨S2048x2048, .f32⟩
  | .hbm, ⟨63, _⟩ => ⟨S4096x2048, .f32⟩
  | .hbm, ⟨64, _⟩ => ⟨S1x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S2048x2048, .f32⟩
  | .hbm, ⟨70, _⟩ => ⟨S4096x2048, .f32⟩
  | .hbm, ⟨71, _⟩ => ⟨S1x2048, .f32⟩
  | .hbm, ⟨72, _⟩ => ⟨S4096x2048, .f32⟩
  | .hbm, ⟨73, _⟩ => ⟨S4096x2048, .f32⟩
  | .hbm, ⟨74, _⟩ => ⟨S2048x2048, .f32⟩
  | .hbm, ⟨75, _⟩ => ⟨S4096x2048, .f32⟩
  | .hbm, ⟨76, _⟩ => ⟨S1x2048, .f32⟩
  | .hbm, ⟨77, _⟩ => ⟨S4096x2048, .f32⟩
  | .hbm, ⟨78, _⟩ => ⟨S4096x2048, .f32⟩
  | .hbm, ⟨79, _⟩ => ⟨S4096x2048, .f32⟩
  | .hbm, ⟨80, _⟩ => ⟨S4096x2048, .f32⟩
  | .hbm, ⟨81, _⟩ => ⟨S4096x2048, .f32⟩
  | .hbm, ⟨82, _⟩ => ⟨S_, .f32⟩
  | .hbm, ⟨83, _⟩ => ⟨S4096x2048, .f32⟩
  | .hbm, ⟨84, _⟩ => ⟨S4096x2048, .f32⟩
  | .hbm, ⟨85, _⟩ => ⟨S_, .f32⟩
  | .hbm, ⟨86, _⟩ => ⟨S4096x2048, .f32⟩
  | .hbm, ⟨87, _⟩ => ⟨S4096x2048, .f32⟩
  | .hbm, ⟨88, _⟩ => ⟨S4096x2048, .f32⟩
  | .hbm, ⟨89, _⟩ => ⟨S4096x2048, .f32⟩
  | .hbm, ⟨90, _⟩ => ⟨S4096x2048, .f32⟩
  | .hbm, ⟨91, _⟩ => ⟨S4096x2048, .f32⟩
  | .hbm, ⟨92, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_1 : Ref sig .tc := ⟨.hbm, 51, rfl⟩
abbrev main_v30 : Ref sig .tc := ⟨.hbm, 52, rfl⟩
abbrev main_v31 : Ref sig .tc := ⟨.hbm, 53, rfl⟩
abbrev main_cst_2 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_3 : Ref sig .tc := ⟨.hbm, 82, rfl⟩
abbrev main_v59 : Ref sig .tc := ⟨.hbm, 83, rfl⟩
abbrev main_v60 : Ref sig .tc := ⟨.hbm, 84, rfl⟩
abbrev main_cst_4 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.LibTileSum.lean ====
/-
  Sums over a range cut into equal blocks, and over a square cut into square tiles.

  In a commutative monoid the order and grouping of a finite sum are free. So the sum of `g` over the `A · B` indices
  `0 … A·B − 1` is the sum, over the `A` blocks, of the sum over the `B` indices `B·i … B·i + B − 1` of block `i`; and the sum of
  `f` over a square of side `A · B` is the sum over its `A × A` tiles of the sum over the `B × B` entries of each tile.
  Likewise the sum over the points `t = B·i + j` of an `A × B` grid visited row by row is the double sum over `(i, j)`.
  Only associativity and commutativity of `+` are used, so the laws hold on the extended reals whatever the terms are.
-/
import Mathlib.Algebra.BigOperators.Fin
import Mathlib.Algebra.BigOperators.Intervals
import Mathlib.Logic.Equiv.Fin.Basic
import Mathlib.Tactic

namespace Cert.LibTileSum

open Finset

/-- Index `r` of block `i` lies below `A · B`. -/
theorem blk_lt {A B : ℕ} (i : Fin A) (r : Fin B) : B * i.val + r.val < A * B := by
  have h1 : B * (i.val + 1) ≤ B * A := Nat.mul_le_mul_left B i.isLt
  have h2 := r.isLt
  rw [Nat.mul_add, Nat.mul_one] at h1
  rw [Nat.mul_comm A B]
  omega

/-- Index `r` of block `i`, as an index of the whole range. -/
def blk {A B N : ℕ} (h : A * B = N) (i : Fin A) (r : Fin B) : Fin N := ⟨B * i.val + r.val, h ▸ blk_lt i r⟩

@[simp] theorem blk_val {A B N : ℕ} (h : A * B = N) (i : Fin A) (r : Fin B) : (blk h i r).val = B * i.val + r.val := rfl

/-- A sum over `A · B` indices, taken block by block. -/
theorem sum_blocks {M : Type*} [AddCommMonoid M] {A B N : ℕ} (h : A * B = N) (g : Fin N → M) :
    ∑ x : Fin N, g x = ∑ i : Fin A, ∑ r : Fin B, g (blk h i r) := by
  subst h
  rw [← Equiv.sum_comp finProdFinEquiv g, Fintype.sum_prod_type]
  refine Finset.sum_congr rfl fun i _ => Finset.sum_congr rfl fun r _ => congrArg g (Fin.ext ?_)
  show r.val + B * i.val = B * i.val + r.val
  exact Nat.add_comm _ _

/-- A sum over a square of side `A · B`, taken tile by tile. -/
theorem sum_tiles {M : Type*} [AddCommMonoid M] {A B N : ℕ} (h : A * B = N) (f : Fin N → Fin N → M) :
    ∑ x : Fin N, ∑ y : Fin N, f x y
      = ∑ i : Fin A, ∑ j : Fin A, ∑ r : Fin B, ∑ c : Fin B, f (blk h i r) (blk h j c) := by
  calc ∑ x : Fin N, ∑ y : Fin N, f x y
      = ∑ i : Fin A, ∑ r : Fin B, ∑ y : Fin N, f (blk h i r) y := sum_blocks h _
    _ = ∑ i : Fin A, ∑ r : Fin B, ∑ j : Fin A, ∑ c : Fin B, f (blk h i r) (blk h j c) :=
        Finset.sum_congr rfl fun i _ => Finset.sum_congr rfl fun r _ => sum_blocks h _
    _ = ∑ i : Fin A, ∑ j : Fin A, ∑ r : Fin B, ∑ c : Fin B, f (blk h i r) (blk h j c) :=
        Finset.sum_congr rfl fun i _ => Finset.sum_comm

/-- A sum over the points of an `A × B` grid visited row by row (point `t` has coordinates `(t / B mod A, t mod B)`)
    is the double sum over the coordinates. -/
theorem sum_rowMajor {M : Type*} [AddCommMonoid M] {A B N : ℕ} (h : A * B = N) (hA : 0 < A) (hB : 0 < B)
    (g : Fin A → Fin B → M) :
    ∑ t : Fin N, g ⟨t.val / B % A, Nat.mod_lt _ hA⟩ ⟨t.val % B, Nat.mod_lt _ hB⟩ = ∑ i : Fin A, ∑ j : Fin B, g i j := by
  rw [sum_blocks h]
  refine Finset.sum_congr rfl fun i _ => Finset.sum_congr rfl fun j _ => ?_
  have e1 : (B * i.val + j.val) / B = i.val := by
    rw [Nat.add_comm, Nat.add_mul_div_left _ _ hB, Nat.div_eq_of_lt j.isLt, Nat.zero_add]
  have e2 : (B * i.val + j.val) % B = j.val := by
    rw [Nat.add_comm, Nat.add_mul_mod_self_left, Nat.mod_eq_of_lt j.isLt]
  congr 1
  · exact Fin.ext (by show (B * i.val + j.val) / B % A = i.val; rw [e1, Nat.mod_eq_of_lt i.isLt])
  · exact Fin.ext (by show (B * i.val + j.val) % B = j.val; exact e2)

end Cert.LibTileSum
-- ==== Proof.Spec.lean ====
/-
  The LSTM cell as one function of its argument arrays, entry by entry, on the extended reals.

  With activations `x, h : [4096, 2048]`, cell state `c : [4096, 2048]`, and per gate two weight matrices stored
  `[out, in]` and two bias vectors, a gate's pre-activation at `(p, q)` is
      `z = (∑ₖ x(p,k)·wx(q,k) + bx(q)) + (∑ₖ h(p,k)·wh(q,k) + bh(q))`,
  the input, forget and output gates are `σ(z)` with `σ(z) = 1 / (1 + e^(−z))`, the candidate is `tanh z`, and
      `c' = f·c + i·g`,   `h' = o·tanh c'`.

  The same pre-activation can be gathered another way: cut the 2048 contracted columns into 16 tiles of 128, add, tile by
  tile, the two partial row products, and add the two biases' sum at the end. On the extended reals addition is
  commutative and associative whatever the terms are, so the two groupings agree (`pre_eq_tiles`); no term has to be finite.
-/
import Idealize.ShloMosaic.PureOps.Ideal
import Idealize.ShloMosaic.Lib.ValueIdx
import proofs.«181231_j81518479278547_2_alg».proof.Proof.LibTileSum

noncomputable section

namespace Cert.Lstm

open Idealize.ShloMosaic Idealize.ShloMosaic.ValueIdx

/-- Activations and the cell state: `[4096, 2048]`. -/
abbrev Act : Type := (⟨2, ![4096, 2048]⟩ : Shape).Idx → EReal
/-- A weight matrix, stored `[out, in]`: `[2048, 2048]`. -/
abbrev Wgt : Type := (⟨2, ![2048, 2048]⟩ : Shape).Idx → EReal
/-- A bias vector: `[2048]`. -/
abbrev Bias : Type := (⟨1, ![2048]⟩ : Shape).Idx → EReal

/-- Row `p` of the activations against row `q` of a weight matrix. -/
def rowDot (a : Act) (w : Wgt) (p : Fin 4096) (q : Fin 2048) : EReal :=
  ∑ k : Fin 2048, a (ix2 p k) * w (ix2 q k)

/-- A gate's pre-activation at `(p, q)`: the two affine maps, added. -/
def pre (x h : Act) (wx : Wgt) (bx : Bias) (wh : Wgt) (bh : Bias) (p : Fin 4096) (q : Fin 2048) : EReal :=
  (rowDot x wx p q + bx (ix1 q)) + (rowDot h wh p q + bh (ix1 q))

/-- The new cell state at `(p, q)`: `σ(z_f)·c + σ(z_i)·tanh(z_c)`. -/
def cellAt (x h c : Act) (wxi : Wgt) (bxi : Bias) (whi : Wgt) (bhi : Bias) (wxf : Wgt) (bxf : Bias) (whf : Wgt) (bhf : Bias)
    (wxc : Wgt) (bxc : Bias) (whc : Wgt) (bhc : Bias) (p : Fin 4096) (q : Fin 2048) : EReal :=
  Ideal.logistic (pre x h wxf bxf whf bhf p q) * c (ix2 p q)
    + Ideal.logistic (pre x h wxi bxi whi bhi p q) * Ideal.tanh (pre x h wxc bxc whc bhc p q)

/-- The new hidden state at `(p, q)`: `σ(z_o)·tanh(c')`. -/
def hiddenAt (x h c : Act) (wxi : Wgt) (bxi : Bias) (whi : Wgt) (bhi : Bias) (wxf : Wgt) (bxf : Bias) (whf : Wgt) (bhf : Bias)
    (wxc : Wgt) (bxc : Bias) (whc : Wgt) (bhc : Bias) (wxo : Wgt) (bxo : Bias) (who : Wgt) (bho : Bias)
    (p : Fin 4096) (q : Fin 2048) : EReal :=
  Ideal.logistic (pre x h wxo bxo who bho p q)
    * Ideal.tanh (cellAt x h c wxi bxi whi bhi wxf bxf whf bhf wxc bxc whc bhc p q)

/-- The new cell state as an array. -/
def cellOut (x h c : Act) (wxi : Wgt) (bxi : Bias) (whi : Wgt) (bhi : Bias) (wxf : Wgt) (bxf : Bias) (whf : Wgt) (bhf : Bias)
    (wxc : Wgt) (bxc : Bias) (whc : Wgt) (bhc : Bias) : Act :=
  fun i => cellAt x h c wxi bxi whi bhi wxf bxf whf bhf wxc bxc whc bhc (i 0) (i 1)

/-- The new hidden state as an array. -/
def hiddenOut (x h c : Act) (wxi : Wgt) (bxi : Bias) (whi : Wgt) (bhi : Bias) (wxf : Wgt) (bxf : Bias) (whf : Wgt) (bhf : Bias)
    (wxc : Wgt) (bxc : Bias) (whc : Wgt) (bhc : Bias) (wxo : Wgt) (bxo : Bias) (who : Wgt) (bho : Bias) : Act :=
  fun i => hiddenAt x h c wxi bxi whi bhi wxf bxf whf bhf wxc bxc whc bhc wxo bxo who bho (i 0) (i 1)

/-! ## The tiled grouping -/

/-- Column `r` of reduction tile `s` (16 tiles of 128 columns). -/
abbrev col (s : Fin 16) (r : Fin 128) : Fin 2048 := Cert.LibTileSum.blk (A := 16) (B := 128) (N := 2048) rfl s r

/-- What reduction tile `s` adds to a gate's accumulator at `(p, q)`: the two partial row products over the tile's columns. -/
def tileDot (x h : Act) (wx wh : Wgt) (p : Fin 4096) (q : Fin 2048) (s : Fin 16) : EReal :=
  (∑ r : Fin 128, x (ix2 p (col s r)) * wx (ix2 q (col s r)))
    + (∑ r : Fin 128, h (ix2 p (col s r)) * wh (ix2 q (col s r)))

/-- A gate's pre-activation gathered tile by tile from a zero accumulator, the biases' sum added last, is the pre-activation. -/
theorem pre_eq_tiles (x h : Act) (wx : Wgt) (bx : Bias) (wh : Wgt) (bh : Bias) (p : Fin 4096) (q : Fin 2048) :
    (0 + ∑ s : Fin 16, tileDot x h wx wh p q s) + (bx (ix1 q) + bh (ix1 q)) = pre x h wx bx wh bh p q := by
  unfold pre rowDot tileDot
  rw [zero_add, Finset.sum_add_distrib,
    ← Cert.LibTileSum.sum_blocks (A := 16) (B := 128) (N := 2048) rfl (fun k => x (ix2 p k) * wx (ix2 q k)),
    ← Cert.LibTileSum.sum_blocks (A := 16) (B := 128) (N := 2048) rfl (fun k => h (ix2 p k) * wh (ix2 q k))]
  exact add_add_add_comm _ _ _ _

end Cert.Lstm

end
-- ==== Proof.RefSide.lean ====
/-
  The reference, read at an entry: its two results are the specification's arrays.

  Each gate's pre-activation is `(x·wxᵀ + bx) + (h·whᵀ + bh)`: the host's product against the transposed weight reads
  `∑ₖ x(p,k)·wx(q,k)`, a bias is broadcast along the rows. The reference spells the sigmoid out as `1 / (1 + e^(−z))`,
  which is the logistic function's definition on the extended reals, the constant `1.0` denoting `1`. The four
  gates are one pattern at four sets of arguments.
-/
import proofs.«181231_j81518479278547_2_alg».proof.Proof.Gen.ReferenceIdeal.Read
import proofs.«181231_j81518479278547_2_alg».proof.Proof.Spec
import Idealize.ShloMosaic.Lib.IdealHost

noncomputable section

namespace Cert.Lstm.Ref

open Cert.ReferenceIdeal Cert.ReferenceIdeal.Read Idealize.ShloMosaic Idealize.ShloMosaic.ValueIdx Cert.Lstm

/-- A gate's pre-activation in the reference, at `(p, q)`. -/
theorem pre_at (x0 x1 : Act) (x3 : Wgt) (x4 : Bias) (x5 : Wgt) (x6 : Bias) (p : Fin 4096) (q : Fin 2048) :
    val_main_v10 (F := Ideal) x0 x1 x3 x4 x5 x6 (ix2 p q) = pre x0 x1 x3 x4 x5 x6 p q := by
  have e1 : ∀ k, lidx_main_v1 (ix2 p q) k = ix2 p k := fun k => funext fun a => Fin.ext (by match a with | ⟨0, _⟩ => rfl | ⟨1, _⟩ => rfl)
  have e2 : ∀ k, idx_main_v0 (ridx_main_v1 (ix2 p q) k) = ix2 q k := fun k => funext fun a => Fin.ext (by match a with | ⟨0, _⟩ => rfl | ⟨1, _⟩ => rfl)
  have e3 : ∀ k, lidx_main_v6 (ix2 p q) k = ix2 p k := fun k => funext fun a => Fin.ext (by match a with | ⟨0, _⟩ => rfl | ⟨1, _⟩ => rfl)
  have e4 : ∀ k, idx_main_v5 (ridx_main_v6 (ix2 p q) k) = ix2 q k := fun k => funext fun a => Fin.ext (by match a with | ⟨0, _⟩ => rfl | ⟨1, _⟩ => rfl)
  have e5 : idx_main_v2 (idx_main_v3 (ix2 p q)) = ix1 q := funext fun a => Fin.ext (by match a with | ⟨0, _⟩ => rfl)
  have e6 : idx_main_v7 (idx_main_v8 (ix2 p q)) = ix1 q := funext fun a => Fin.ext (by match a with | ⟨0, _⟩ => rfl)
  rw [val_main_v10_apply, val_main_v4_apply, val_main_v9_apply, val_main_v1_apply, val_main_v6_apply, val_main_v3_apply,
    val_main_v8_apply, val_main_v2_apply, val_main_v7_apply]
  simp only [val_main_v0_apply, val_main_v5_apply, e1, e2, e3, e4, e5, e6]
  rfl

/-- The reference's spelt-out sigmoid is the logistic function of the pre-activation. -/
theorem sigma_at (x0 x1 : Act) (x3 : Wgt) (x4 : Bias) (x5 : Wgt) (x6 : Bias) (i : S4096x2048.Idx) :
    val_main_v16 (F := Ideal) x0 x1 x3 x4 x5 x6 i = Ideal.logistic (val_main_v10 (F := Ideal) x0 x1 x3 x4 x5 x6 i) := by
  rw [val_main_v16_apply, val_main_v15_apply, val_main_cst_0_apply, val_main_v14_apply, val_main_v13_apply,
    val_main_cst_apply, val_main_v12_apply, val_main_v11_apply]
  show Ideal.div (Ideal.ofBits .f32 0x3F800000#32) (Ideal.ofBits .f32 0x3F800000#32 + Ideal.exp (-(val_main_v10 (F := Ideal) x0 x1 x3 x4 x5 x6 i))) = _
  rw [Ideal.ofBits_one_f32]
  rfl

/-- The forget, candidate and output gates are the input gate's pattern at their own arguments. -/
theorem v33_eq (x0 x1 : Act) (x7 : Wgt) (x8 : Bias) (x9 : Wgt) (x10 : Bias) :
    val_main_v33 (F := Ideal) x0 x1 x7 x8 x9 x10 = val_main_v16 (F := Ideal) x0 x1 x7 x8 x9 x10 := rfl
theorem v44_eq (x0 x1 : Act) (x11 : Wgt) (x12 : Bias) (x13 : Wgt) (x14 : Bias) :
    val_main_v44 (F := Ideal) x0 x1 x11 x12 x13 x14 = val_main_v10 (F := Ideal) x0 x1 x11 x12 x13 x14 := rfl
theorem v62_eq (x0 x1 : Act) (x15 : Wgt) (x16 : Bias) (x17 : Wgt) (x18 : Bias) :
    val_main_v62 (F := Ideal) x0 x1 x15 x16 x17 x18 = val_main_v16 (F := Ideal) x0 x1 x15 x16 x17 x18 := rfl

/-- The reference's new cell state is the specification's. -/
theorem cell_eq (x0 : Act) (x1 : Act) (x2 : Act) (x3 : Wgt) (x4 : Bias) (x5 : Wgt) (x6 : Bias) (x7 : Wgt) (x8 : Bias) (x9 : Wgt) (x10 : Bias) (x11 : Wgt) (x12 : Bias) (x13 : Wgt) (x14 : Bias) :
    val_main_v65 (F := Ideal) x0 x1 x2 x3 x4 x5 x6 x7 x8 x9 x10 x11 x12 x13 x14
      = cellOut x0 x1 x2 x3 x4 x5 x6 x7 x8 x9 x10 x11 x12 x13 x14 := by
  funext i
  obtain ⟨p, q, rfl⟩ : ∃ (p : Fin 4096) (q : Fin 2048), i = ix2 p q := ⟨i 0, i 1, eq_ix2 i⟩
  rw [val_main_v65_apply, val_main_v63_apply, val_main_v64_apply, val_main_v45_apply, v33_eq, v44_eq, sigma_at, sigma_at,
    pre_at, pre_at, pre_at]
  rfl

/-- The reference's new hidden state is the specification's. -/
theorem hidden_eq (x0 : Act) (x1 : Act) (x2 : Act) (x3 : Wgt) (x4 : Bias) (x5 : Wgt) (x6 : Bias) (x7 : Wgt) (x8 : Bias) (x9 : Wgt) (x10 : Bias) (x11 : Wgt) (x12 : Bias) (x13 : Wgt) (x14 : Bias) (x15 : Wgt) (x16 : Bias) (x17 : Wgt) (x18 : Bias) :
    val_main_v67 (F := Ideal) x0 x1 x2 x3 x4 x5 x6 x7 x8 x9 x10 x11 x12 x13 x14 x15 x16 x17 x18
      = hiddenOut x0 x1 x2 x3 x4 x5 x6 x7 x8 x9 x10 x11 x12 x13 x14 x15 x16 x17 x18 := by
  funext i
  obtain ⟨p, q, rfl⟩ : ∃ (p : Fin 4096) (q : Fin 2048), i = ix2 p q := ⟨i 0, i 1, eq_ix2 i⟩
  rw [val_main_v67_apply, val_main_v66_apply, v62_eq, sigma_at, pre_at, cell_eq]
  rfl

/-- The same, for arrays given with a proof that they are the specification's arguments. -/
theorem cell_eq_of {x0 : Act} {x1 : Act} {x2 : Act} {x3 : Wgt} {x4 : Bias} {x5 : Wgt} {x6 : Bias} {x7 : Wgt} {x8 : Bias} {x9 : Wgt} {x10 : Bias} {x11 : Wgt} {x12 : Bias} {x13 : Wgt} {x14 : Bias} {y0 : Act} {y1 : Act} {y2 : Act} {y3 : Wgt} {y4 : Bias} {y5 : Wgt} {y6 : Bias} {y7 : Wgt} {y8 : Bias} {y9 : Wgt} {y10 : Bias} {y11 : Wgt} {y12 : Bias} {y13 : Wgt} {y14 : Bias}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) :
    val_main_v65 (F := Ideal) x0 x1 x2 x3 x4 x5 x6 x7 x8 x9 x10 x11 x12 x13 x14 = cellOut y0 y1 y2 y3 y4 y5 y6 y7 y8 y9 y10 y11 y12 y13 y14 := by
  subst h0 h1 h2 h3 h4 h5 h6 h7 h8 h9 h10 h11 h12 h13 h14
  exact cell_eq x0 x1 x2 x3 x4 x5 x6 x7 x8 x9 x10 x11 x12 x13 x14

theorem hidden_eq_of {x0 : Act} {x1 : Act} {x2 : Act} {x3 : Wgt} {x4 : Bias} {x5 : Wgt} {x6 : Bias} {x7 : Wgt} {x8 : Bias} {x9 : Wgt} {x10 : Bias} {x11 : Wgt} {x12 : Bias} {x13 : Wgt} {x14 : Bias} {x15 : Wgt} {x16 : Bias} {x17 : Wgt} {x18 : Bias} {y0 : Act} {y1 : Act} {y2 : Act} {y3 : Wgt} {y4 : Bias} {y5 : Wgt} {y6 : Bias} {y7 : Wgt} {y8 : Bias} {y9 : Wgt} {y10 : Bias} {y11 : Wgt} {y12 : Bias} {y13 : Wgt} {y14 : Bias} {y15 : Wgt} {y16 : Bias} {y17 : Wgt} {y18 : Bias}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) :
    val_main_v67 (F := Ideal) x0 x1 x2 x3 x4 x5 x6 x7 x8 x9 x10 x11 x12 x13 x14 x15 x16 x17 x18 = hiddenOut y0 y1 y2 y3 y4 y5 y6 y7 y8 y9 y10 y11 y12 y13 y14 y15 y16 y17 y18 := by
  subst h0 h1 h2 h3 h4 h5 h6 h7 h8 h9 h10 h11 h12 h13 h14 h15 h16 h17 h18
  exact hidden_eq x0 x1 x2 x3 x4 x5 x6 x7 x8 x9 x10 x11 x12 x13 x14 x15 x16 x17 x18

end Cert.Lstm.Ref

end
-- ==== Proof.LibDotLastAxis.lean ====
/-
  A matrix product contracted over the LAST axis of both operands, read at an entry, on the extended reals.

  For an `m × k` matrix `A` and an `n × k` matrix `B` (the right operand given with the contracted axis last, as a weight
  matrix stored row by row), the product with dimension numbers "contract axis 1 with axis 1" has, at `(p, j)`, the value
  `∑ c, A (p, c) · B (j, c)`. On the extended reals a kernel's matrix unit accumulating into a zero tile and the host's
  product are this same sum: there is no rounding and no order of accumulation to tell them apart.
-/
import Idealize.ShloMosaic.PureOps.Ideal
import Idealize.ShloMosaic.PureOps.Ideal.Laws
import Idealize.ShloMosaic.Lib.ValueIdx

noncomputable section

namespace Cert.LibDotLastAxis

open Idealize.ShloMosaic Idealize.ShloMosaic.ValueIdx

/-- The matrix unit's product into a zero tile, both operands contracted on their last axis, at `(p, j)`. -/
theorem matmulT_zero_apply {m k n : ℕ} {φ₁ φ₂ : FTy}
    (w : DotDims.WF ⟨2, ![m, k]⟩ ⟨2, ![n, k]⟩ ⟨2, ![m, n]⟩ [1] [1] [0] [0] [] []) (prec : Option ContractPrecision)
    (A : FVec Ideal ⟨2, ![m, k]⟩ φ₁) (B : FVec Ideal ⟨2, ![n, k]⟩ φ₂) (p : Fin m) (j : Fin n) :
    FloatOps.matmul (⟨[1], [1], [0], [0], [], [], w⟩ : DotDims ⟨2, ![m, k]⟩ ⟨2, ![n, k]⟩ ⟨2, ![m, n]⟩) prec A B
        (constant (F := Ideal) ⟨2, ![m, n]⟩ .f32 0x00000000#32) (ix2 p j)
      = ∑ c : Fin k, A (ix2 p c) * B (ix2 j c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 p j)
      ((contrEquiv1 _ k rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 p j)
      ((contrEquiv1 _ k rfl rfl).symm c) = ix2 j c := by
    funext ax; apply Fin.ext
    match ax with
    | ⟨0, _⟩ => simp [DotDims.rhsIdx]; rfl
    | ⟨1, _⟩ => simp [DotDims.rhsIdx]; exact c2
  rw [l2, r2]

/-- The host's product with the same dimension numbers, at `(p, j)`. -/
theorem dotGeneralT_apply {m k n : ℕ} {φ₁ φ₂ : FTy}
    (w : DotDims.WF ⟨2, ![m, k]⟩ ⟨2, ![n, k]⟩ ⟨2, ![m, n]⟩ [1] [1] [0] [0] [] []) (prec : Option ContractPrecision)
    (A : FVec Ideal ⟨2, ![m, k]⟩ φ₁) (B : FVec Ideal ⟨2, ![n, k]⟩ φ₂) (p : Fin m) (j : Fin n) :
    Host.dotGeneral (F := Ideal) (⟨[1], [1], [0], [0], [], [], w⟩ : DotDims ⟨2, ![m, k]⟩ ⟨2, ![n, k]⟩ ⟨2, ![m, n]⟩) prec A B (ix2 p j)
      = ∑ c : Fin k, A (ix2 p c) * B (ix2 j c) :=
  (Ideal.dotGeneral_apply _ prec .single A B (ix2 p j)).trans
    ((Ideal.matmul_constant_zero_apply _ none A B (ix2 p j)).symm.trans (matmulT_zero_apply w none A B p j))

end Cert.LibDotLastAxis

end
-- ==== Proof.Payload.lean ====
/-
  The kernel body's arithmetic, read at an entry, on the extended reals.

  At one grid point the body holds a 128-column tile of `x` and of `h` ([4096, 128] each), per gate a [256, 128] tile of
  the two weight matrices, and a [4, 4096, 256] accumulator, one [4096, 256] slab per gate. Each slab update adds to the
  slab, entry by entry, the two tile products `∑_c x(p,c)·wx(q,c) + ∑_c h(p,c)·wh(q,c)` (the matrix unit into a zero tile
  is that sum; narrowing the operands to bf16 changes nothing on the extended reals). At the last reduction step the
  epilogue reads the four slabs and the four bias rows and forms `c' = σ(a₁+b₁)·c + σ(a₀+b₀)·tanh(a₂+b₂)` and
  `h' = σ(a₃+b₃)·tanh c'`.
-/
import proofs.«181231_j81518479278547_2_alg».proof.Proof.Gen.KernelIdeal.Skeleton
import proofs.«181231_j81518479278547_2_alg».proof.Proof.LibDotLastAxis
import Idealize.ShloMosaic.Lib.ValueIdx
import Idealize.ShloMosaic.Lib.ValueLayout
import Idealize.ShloMosaic.PureOps.Ideal.Laws

noncomputable section

namespace Cert.Lstm.Pay

open Cert.KernelIdeal Cert.KernelIdeal.Gen Idealize.ShloMosaic Idealize.ShloMosaic.ValueIdx

/-- The two tile products a slab update adds at `(p, q)`. -/
def tile2 (a b : S4096x128.Idx → EReal) (w1 w2 : S256x128.Idx → EReal) (p : Fin 4096) (q : Fin 256) : EReal :=
  (∑ c : Fin 128, a (ix2 p c) * w1 (ix2 q c)) + (∑ c : Fin 128, b (ix2 p c) * w2 (ix2 q c))

/-- The matrix unit's product of a [4096, 128] tile with a [256, 128] tile into a zero tile, at `(p, q)`. -/
theorem mm_apply {φ₁ φ₂ : FTy} (a : FVec Ideal S4096x128 φ₁) (w : FVec Ideal S256x128 φ₂) (p : Fin 4096) (q : Fin 256) :
    matmul dot_S4096x128_S256x128_S4096x256_1_1_0_0_n_n none a w (constant (F := Ideal) S4096x256 .f32 0x00000000#32) (ix2 p q)
      = ∑ c : Fin 128, a (ix2 p c) * w (ix2 q c) :=
  Cert.LibDotLastAxis.matmulT_zero_apply dot_S4096x128_S256x128_S4096x256_1_1_0_0_n_n.wf none a w p q

/-- Gate 0's slab update, from the loaded tiles. -/
theorem pay6_apply (v3 v5 : Vec Ideal S4096x128 .f32) (v7 v9 : Vec Ideal S256x128 .f32) (v14 : Vec Ideal S1x4096x256 .f32)
    (p : Fin 4096) (q : Fin 256) :
    k0_pay6 (F := Ideal) v3 v5 v7 v9 v14 (ix3 (0 : Fin 1) p q) = v14 (ix3 (0 : Fin 1) p q) + tile2 v3 v5 v7 v9 p q := by
  unfold k0_pay6 k0_pay4 k0_pay5
  refine (shapeCast_ab_1ab_apply _ _ 0 p q).trans ?_
  refine (addf_apply _ _ _).trans ?_
  refine congrArg₂ (· + ·) (shapeCast_1ab_ab_apply v14 _ p q) ?_
  refine (addf_apply _ _ _).trans ?_
  exact congrArg₂ (· + ·) (mm_apply _ _ p q) (mm_apply _ _ p q)

/-- Gate 1's slab update, from the loaded tiles. -/
theorem pay9_apply (v3 v5 : Vec Ideal S4096x128 .f32) (v20 v22 : Vec Ideal S256x128 .f32) (v27 : Vec Ideal S1x4096x256 .f32)
    (p : Fin 4096) (q : Fin 256) :
    k0_pay9 (F := Ideal) (k0_pay7 v3 v5 v20 v22) (k0_pay8 v27) (ix3 (0 : Fin 1) p q)
      = v27 (ix3 (0 : Fin 1) p q) + tile2 v3 v5 v20 v22 p q := by
  unfold k0_pay9 k0_pay8 k0_pay7 k0_pay4 k0_pay5
  refine (shapeCast_ab_1ab_apply _ _ 0 p q).trans ?_
  refine (addf_apply _ _ _).trans ?_
  refine congrArg₂ (· + ·) (shapeCast_1ab_ab_apply v27 _ p q) ?_
  refine (addf_apply _ _ _).trans ?_
  exact congrArg₂ (· + ·) (mm_apply _ _ p q) (mm_apply _ _ p q)

/-- Gate 2's slab update, from the narrowed activation tiles. -/
theorem pay10_apply (v4 v6 : FVec Ideal S4096x128 .bf16) (v33 v35 : Vec Ideal S256x128 .f32) (v40 : Vec Ideal S1x4096x256 .f32)
    (p : Fin 4096) (q : Fin 256) :
    k0_pay10 (F := Ideal) v4 v6 v33 v35 v40 (ix3 (0 : Fin 1) p q) = v40 (ix3 (0 : Fin 1) p q) + tile2 v4 v6 v33 v35 p q := by
  unfold k0_pay10
  refine (shapeCast_ab_1ab_apply _ _ 0 p q).trans ?_
  refine (addf_apply _ _ _).trans ?_
  refine congrArg₂ (· + ·) (shapeCast_1ab_ab_apply v40 _ p q) ?_
  refine (addf_apply _ _ _).trans ?_
  exact congrArg₂ (· + ·) (mm_apply _ _ p q) (mm_apply _ _ p q)

/-- Gate 3's slab update, from the narrowed activation tiles. -/
theorem pay11_apply (v4 v6 : FVec Ideal S4096x128 .bf16) (v46 v48 : Vec Ideal S256x128 .f32) (v53 : Vec Ideal S1x4096x256 .f32)
    (p : Fin 4096) (q : Fin 256) :
    k0_pay11 (F := Ideal) v4 v6 v46 v48 v53 (ix3 (0 : Fin 1) p q) = v53 (ix3 (0 : Fin 1) p q) + tile2 v4 v6 v46 v48 p q := by
  unfold k0_pay11
  refine (shapeCast_ab_1ab_apply _ _ 0 p q).trans ?_
  refine (addf_apply _ _ _).trans ?_
  refine congrArg₂ (· + ·) (shapeCast_1ab_ab_apply v53 _ p q) ?_
  refine (addf_apply _ _ _).trans ?_
  exact congrArg₂ (· + ·) (mm_apply _ _ p q) (mm_apply _ _ p q)

/-- A slab plus its bias row, at `(p, q)`. -/
theorem slab_bias_apply (s : Vec Ideal S1x4096x256 .f32) (b : Vec Ideal S1x256 .f32) (p : Fin 4096) (q : Fin 256) :
    addf (F := Ideal) (φ := .f32) (shapeCast S4096x256 s shapeCasts_S1x4096x256_S4096x256)
        (broadcastTo S4096x256 (shapeCast S1x256 b shapeCasts_S1x256_S1x256) broadcasts_S1x256_S4096x256) (ix2 p q)
      = s (ix3 (0 : Fin 1) p q) + b (ix2 (0 : Fin 1) q) := by
  refine (addf_apply _ _ _).trans ?_
  refine congrArg₂ (· + ·) (shapeCast_1ab_ab_apply s _ p q) ?_
  refine (broadcastTo_1b_ab_apply _ _ p q).trans ?_
  rw [shapeCast_self]

/-- The epilogue's new cell state at `(p, q)`. -/
theorem pay1_apply (v62 : Vec Ideal S1x4096x256 .f32) (v64 : Vec Ideal S1x256 .f32) (v69 : Vec Ideal S1x4096x256 .f32)
    (v71 : Vec Ideal S1x256 .f32) (v76 : Vec Ideal S1x4096x256 .f32) (v78 : Vec Ideal S1x256 .f32) (v90 : Vec Ideal S4096x256 .f32)
    (p : Fin 4096) (q : Fin 256) :
    k0_pay1 (F := Ideal) v62 v64 v69 v71 v76 v78 v90 (ix2 p q)
      = Ideal.logistic (v69 (ix3 (0 : Fin 1) p q) + v71 (ix2 (0 : Fin 1) q)) * v90 (ix2 p q)
        + Ideal.logistic (v62 (ix3 (0 : Fin 1) p q) + v64 (ix2 (0 : Fin 1) q))
          * Ideal.tanh (v76 (ix3 (0 : Fin 1) p q) + v78 (ix2 (0 : Fin 1) q)) := by
  unfold k0_pay1
  refine (addf_apply _ _ _).trans ?_
  refine congrArg₂ (· + ·) ?_ ?_
  · refine (mulf_apply _ _ _).trans ?_
    exact congrArg (· * v90 (ix2 p q)) (congrArg Ideal.logistic (slab_bias_apply v69 v71 p q))
  · refine (mulf_apply _ _ _).trans ?_
    exact congrArg₂ (· * ·) (congrArg Ideal.logistic (slab_bias_apply v62 v64 p q))
      (congrArg Ideal.tanh (slab_bias_apply v76 v78 p q))

/-- The epilogue's new hidden state at `(p, q)`. -/
theorem pay2_apply (v62 : Vec Ideal S1x4096x256 .f32) (v64 : Vec Ideal S1x256 .f32) (v69 : Vec Ideal S1x4096x256 .f32)
    (v71 : Vec Ideal S1x256 .f32) (v76 : Vec Ideal S1x4096x256 .f32) (v78 : Vec Ideal S1x256 .f32)
    (v83 : Vec Ideal S1x4096x256 .f32) (v85 : Vec Ideal S1x256 .f32) (v90 : Vec Ideal S4096x256 .f32)
    (p : Fin 4096) (q : Fin 256) :
    k0_pay2 (F := Ideal) v62 v64 v69 v71 v76 v78 v83 v85 v90 (ix2 p q)
      = Ideal.logistic (v83 (ix3 (0 : Fin 1) p q) + v85 (ix2 (0 : Fin 1) q))
        * Ideal.tanh (k0_pay1 (F := Ideal) v62 v64 v69 v71 v76 v78 v90 (ix2 p q)) := by
  unfold k0_pay2
  refine (mulf_apply _ _ _).trans ?_
  exact congrArg (· * Ideal.tanh (k0_pay1 (F := Ideal) v62 v64 v69 v71 v76 v78 v90 (ix2 p q)))
    (congrArg Ideal.logistic (slab_bias_apply v83 v85 p q))

end Cert.Lstm.Pay

end
-- ==== Proof.Slabs.lean ====
/-
  A [4, 4096, 256] accumulator written slab by slab, read at an entry.

  The accumulator is four [4096, 256] slabs, slab `g` being the entries `(g, p, q)`. After a list of stores, each
  through one slab or through the whole buffer, the entry `(g, p, q)` holds what the LAST store that covers it wrote:
  a store through another slab does not touch it, a store through slab `g` leaves its value at `(0, p, q)`, and a store
  through the whole buffer leaves its value at `(g, p, q)`.
-/
import Idealize.ShloMosaic.Lib.Pipeline.Value
import Idealize.ShloMosaic.Lib.ValueIdx

noncomputable section

namespace Cert.Lstm.Slabs

open Idealize.ShloMosaic Idealize.ShloMosaic.ValueIdx

/-- The accumulator's shape. -/
abbrev Acc : Shape := ⟨3, ![4, 4096, 256]⟩

variable {Val : EltTy → Type} {e : EltTy}

/-- Entry `(u, p, q)` of slab `g` sits at `(g, p, q)` of the accumulator. -/
theorem slab_idx (g : ℕ) (hg : g < 4)
    (inb : ∀ a, (![g, 0, 0] : Fin 3 → ℕ) a + (![1, 4096, 256] : Fin 3 → ℕ) a ≤ Acc.size a)
    (u : Fin 1) (p : Fin 4096) (q : Fin 256) :
    (Rect.unit (s := Acc) ![g, 0, 0] ![1, 4096, 256] inb).toLoadRect.idx (ix3 u p q) = ix3 (⟨g, hg⟩ : Fin 4) p q := by
  funext a
  apply Fin.ext
  match a with
  | ⟨0, _⟩ => show g + 1 * u.val = g; omega
  | ⟨1, _⟩ => show 0 + 1 * p.val = p.val; omega
  | ⟨2, _⟩ => show 0 + 1 * q.val = q.val; omega

/-- A load of slab `g` reads, at `(u, p, q)`, the contents at `(g, p, q)`. -/
theorem ld_slab (X : Acc.Idx → Val e) (g : ℕ) (hg : g < 4)
    (inb : ∀ a, (![g, 0, 0] : Fin 3 → ℕ) a + (![1, 4096, 256] : Fin 3 → ℕ) a ≤ Acc.size a)
    (u : Fin 1) (p : Fin 4096) (q : Fin 256) :
    View.ld X (Rect.unit (s := Acc) ![g, 0, 0] ![1, 4096, 256] inb) (ix3 u p q) = X (ix3 (⟨g, hg⟩ : Fin 4) p q) :=
  congrArg X (slab_idx g hg inb u p q)

variable [∀ e, Nonempty (Val e)]

/-- A last store through slab `g` leaves, at `(g, p, q)`, its value at `(0, p, q)`. -/
theorem canon_hit (g : ℕ) (hg : g < 4)
    (inb : ∀ a, (![g, 0, 0] : Fin 3 → ℕ) a + (![1, 4096, 256] : Fin 3 → ℕ) a ≤ Acc.size a)
    (w : (Rect.unit (s := Acc) ![g, 0, 0] ![1, 4096, 256] inb).shape.Idx → Val e) (L : List (View.Piece Val Acc e))
    (p : Fin 4096) (q : Fin 256) :
    View.canon (⟨Rect.unit (s := Acc) ![g, 0, 0] ![1, 4096, 256] inb, w⟩ :: L) (ix3 (⟨g, hg⟩ : Fin 4) p q)
      = w (ix3 (0 : Fin 1) p q) := by
  have h := View.canon_cons_emb (Val := Val) (Rect.unit (s := Acc) ![g, 0, 0] ![1, 4096, 256] inb) w L (ix3 (0 : Fin 1) p q)
  have e' : (Rect.unit (s := Acc) ![g, 0, 0] ![1, 4096, 256] inb).emb (ix3 (0 : Fin 1) p q) = ix3 (⟨g, hg⟩ : Fin 4) p q :=
    slab_idx g hg inb 0 p q
  rw [e'] at h
  exact h

/-- A last store through another slab leaves `(g, p, q)` as the earlier stores left it. -/
theorem canon_miss (g g' : ℕ) (hg : g < 4) (hne : g' ≠ g)
    (inb : ∀ a, (![g', 0, 0] : Fin 3 → ℕ) a + (![1, 4096, 256] : Fin 3 → ℕ) a ≤ Acc.size a)
    (w : (Rect.unit (s := Acc) ![g', 0, 0] ![1, 4096, 256] inb).shape.Idx → Val e) (L : List (View.Piece Val Acc e))
    (p : Fin 4096) (q : Fin 256) :
    View.canon (⟨Rect.unit (s := Acc) ![g', 0, 0] ![1, 4096, 256] inb, w⟩ :: L) (ix3 (⟨g, hg⟩ : Fin 4) p q)
      = View.canon L (ix3 (⟨g, hg⟩ : Fin 4) p q) := by
  refine View.canon_cons_of_not_mem _ L ?_
  show ix3 (⟨g, hg⟩ : Fin 4) p q ∉ (Rect.unit (s := Acc) ![g', 0, 0] ![1, 4096, 256] inb).set
  rw [Rect.mem_set_unit]
  intro h
  have h0 : g' ≤ g ∧ g < g' + 1 := h (⟨0, Nat.zero_lt_succ 2⟩ : Fin 3)
  omega

/-- A last store through the whole buffer leaves its value everywhere. -/
theorem canon_whole (inb : ∀ a, (![0, 0, 0] : Fin 3 → ℕ) a + Acc.size a ≤ Acc.size a)
    (w : Acc.Idx → Val e) (L : List (View.Piece Val Acc e)) (y : Acc.Idx) :
    View.canon (⟨Rect.unit (s := Acc) ![0, 0, 0] Acc.size inb, w⟩ :: L) y = w y :=
  congrFun (View.canon_cons_unit_zero (S := Acc)
    (funext fun a => by match a with | ⟨0, _⟩ => rfl | ⟨1, _⟩ => rfl | ⟨2, _⟩ => rfl) inb w L) y

/-- A load of slab `g` after a list of stores reads, at `(u, p, q)`, what the stores left at `(g, p, q)`. -/
theorem readCov_slab {sig : RefSig} {κ : Kind} {sp : Space} (v : View sig κ sp Acc e) (L : List (View.Piece Val Acc e))
    (g : ℕ) (hg : g < 4)
    (inb : ∀ a, (![g, 0, 0] : Fin 3 → ℕ) a + (![1, 4096, 256] : Fin 3 → ℕ) a ≤ Acc.size a)
    (u : Fin 1) (p : Fin 4096) (q : Fin 256) :
    v.readCov L (Rect.unit (s := Acc) ![g, 0, 0] ![1, 4096, 256] inb).toLoadRect (ix3 u p q)
      = View.canon L (ix3 (⟨g, hg⟩ : Fin 4) p q) :=
by
  have h1 := congrFun (View.readCov_eq_canon' v L (Rect.unit (s := Acc) ![g, 0, 0] ![1, 4096, 256] inb).toLoadRect) (ix3 u p q)
  rw [h1]
  exact congrArg (View.canon L) (slab_idx g hg inb u p q)

end Cert.Lstm.Slabs

end
-- ==== Proof.Pieces.lean ====
/-
  What the body leaves at one grid point, in the terms of its arithmetic.

  At every point the body updates the accumulator's four slabs, one store each: slab `g` gets its previous contents plus the
  two tile products of gate `g`. At the first reduction step the accumulator is first stored whole with zeros, so the
  previous contents there are zero. At the last reduction step the epilogue reads the four updated slabs back and stores
  the new hidden and cell states through the whole output blocks.
-/
import proofs.«181231_j81518479278547_2_alg».proof.Proof.Gen.KernelIdeal.Frame
import proofs.«181231_j81518479278547_2_alg».proof.Proof.Payload
import proofs.«181231_j81518479278547_2_alg».proof.Proof.Slabs
import Idealize.ShloMosaic.Lib.Pipeline.Value
import Idealize.ShloMosaic.Lib.ValueIdx

set_option maxRecDepth 16384

noncomputable section

namespace Cert.Lstm.Pieces

open Cert.KernelIdeal Cert.KernelIdeal.Gen Idealize.ShloMosaic Idealize.ShloMosaic.TcCoe Idealize.ShloMosaic.Tactic Idealize.SL.Sem
open Idealize.ShloMosaic.ValueIdx Cert.Lstm.Pay Cert.Lstm.Slabs

theorem hz2 : (![0, 0] : Fin 2 → Nat) = fun _ => 0 := funext fun a => by match a with | ⟨0, _⟩ => rfl | ⟨1, _⟩ => rfl

/-- Gate `g`'s two tile products at `(p, q)`: the activations' tiles against the gate's two weight tiles. -/
def gateTile (x0 x1 : S4096x128.Idx → EReal) (x2 x3 x4 x5 x6 x7 x8 x9 : S256x128.Idx → EReal) (g : Fin 4) (p : Fin 4096) (q : Fin 256) :
    EReal :=
  tile2 x0 x1 (![x2, x3, x4, x5] g) (![x6, x7, x8, x9] g) p q

/-- The four slab updates of one grid point (last first), over the accumulator's previous contents `xs0`. -/
def stores (x0 x1 : Vec Ideal S4096x128 .f32) (x2 x3 x4 x5 x6 x7 x8 x9 : Vec Ideal S256x128 .f32) (xs0 : Vec Ideal S4x4096x256 .f32) :
    List (View.Piece (Elt Ideal) S4x4096x256 .f32) :=
  [⟨(Rect.unit (s := S4x4096x256) ![3, 0, 0] ![1, 4096, 256] inb_S4x4096x256_S1x4096x256_3_0_0), k0_pay11 (k0_pay4 x0) (k0_pay5 x1) x5 x9 (View.ld xs0 (Rect.unit (s := S4x4096x256) ![3, 0, 0] ![1, 4096, 256] inb_S4x4096x256_S1x4096x256_3_0_0))⟩,
   ⟨(Rect.unit (s := S4x4096x256) ![2, 0, 0] ![1, 4096, 256] inb_S4x4096x256_S1x4096x256_2_0_0), k0_pay10 (k0_pay4 x0) (k0_pay5 x1) x4 x8 (View.ld xs0 (Rect.unit (s := S4x4096x256) ![2, 0, 0] ![1, 4096, 256] inb_S4x4096x256_S1x4096x256_2_0_0))⟩,
   ⟨(Rect.unit (s := S4x4096x256) ![1, 0, 0] ![1, 4096, 256] inb_S4x4096x256_S1x4096x256_1_0_0), k0_pay9 (k0_pay7 x0 x1 x3 x7) (k0_pay8 (View.ld xs0 (Rect.unit (s := S4x4096x256) ![1, 0, 0] ![1, 4096, 256] inb_S4x4096x256_S1x4096x256_1_0_0)))⟩,
   ⟨(Rect.unit (s := S4x4096x256) ![0, 0, 0] ![1, 4096, 256] inb_S4x4096x256_S1x4096x256_0_0_0), k0_pay6 x0 x1 x2 x6 (View.ld xs0 (Rect.unit (s := S4x4096x256) ![0, 0, 0] ![1, 4096, 256] inb_S4x4096x256_S1x4096x256_0_0_0))⟩]

/-- After the four slab updates, entry `(g, p, q)` holds its previous value plus gate `g`'s tile products. -/
theorem stores_apply (x0 x1 : Vec Ideal S4096x128 .f32) (x2 x3 x4 x5 x6 x7 x8 x9 : Vec Ideal S256x128 .f32) (xs0 : Vec Ideal S4x4096x256 .f32)
    (g : Fin 4) (p : Fin 4096) (q : Fin 256) :
    View.canon (stores x0 x1 x2 x3 x4 x5 x6 x7 x8 x9 xs0) (ix3 g p q) = xs0 (ix3 g p q) + gateTile x0 x1 x2 x3 x4 x5 x6 x7 x8 x9 g p q := by
  unfold stores
  match g with
  | ⟨0, _⟩ =>
    refine (canon_miss 0 3 (by decide) (by decide) _ _ _ p q).trans ?_
    refine (canon_miss 0 2 (by decide) (by decide) _ _ _ p q).trans ?_
    refine (canon_miss 0 1 (by decide) (by decide) _ _ _ p q).trans ?_
    refine (canon_hit 0 (by decide) _ _ _ p q).trans ?_
    refine (pay6_apply _ _ _ _ _ p q).trans ?_
    exact congrArg₂ (· + ·) (ld_slab xs0 0 (by decide) _ 0 p q) rfl
  | ⟨1, _⟩ =>
    refine (canon_miss 1 3 (by decide) (by decide) _ _ _ p q).trans ?_
    refine (canon_miss 1 2 (by decide) (by decide) _ _ _ p q).trans ?_
    refine (canon_hit 1 (by decide) _ _ _ p q).trans ?_
    refine (pay9_apply _ _ _ _ _ p q).trans ?_
    exact congrArg₂ (· + ·) (ld_slab xs0 1 (by decide) _ 0 p q) rfl
  | ⟨2, _⟩ =>
    refine (canon_miss 2 3 (by decide) (by decide) _ _ _ p q).trans ?_
    refine (canon_hit 2 (by decide) _ _ _ p q).trans ?_
    refine (pay10_apply _ _ _ _ _ p q).trans ?_
    exact congrArg₂ (· + ·) (ld_slab xs0 2 (by decide) _ 0 p q) rfl
  | ⟨3, _⟩ =>
    refine (canon_hit 3 (by decide) _ _ _ p q).trans ?_
    refine (pay11_apply _ _ _ _ _ p q).trans ?_
    exact congrArg₂ (· + ·) (ld_slab xs0 3 (by decide) _ 0 p q) rfl

/-- A load of slab `g` after the four updates reads, at `(u, p, q)`, the updated entry `(g, p, q)`. -/
theorem read_stores {sig' : RefSig} {κ : Kind} {sp : Space} (v : View sig' κ sp S4x4096x256 .f32)
    (x0 x1 : Vec Ideal S4096x128 .f32) (x2 x3 x4 x5 x6 x7 x8 x9 : Vec Ideal S256x128 .f32) (xs0 : Vec Ideal S4x4096x256 .f32)
    (g : ℕ) (hg : g < 4) (inb : ∀ a, (![g, 0, 0] : Fin 3 → ℕ) a + (![1, 4096, 256] : Fin 3 → ℕ) a ≤ S4x4096x256.size a)
    (p : Fin 4096) (q : Fin 256) :
    v.readCov (stores x0 x1 x2 x3 x4 x5 x6 x7 x8 x9 xs0) (Rect.unit (s := S4x4096x256) ![g, 0, 0] ![1, 4096, 256] inb).toLoadRect (ix3 (0 : Fin 1) p q)
      = xs0 (ix3 (⟨g, hg⟩ : Fin 4) p q) + gateTile x0 x1 x2 x3 x4 x5 x6 x7 x8 x9 ⟨g, hg⟩ p q :=
  (readCov_slab v _ g hg inb 0 p q).trans (stores_apply x0 x1 x2 x3 x4 x5 x6 x7 x8 x9 xs0 ⟨g, hg⟩ p q)

/-- A middle reduction step leaves the accumulator at its four updates. -/
theorem soutB_eq (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S4096x256 .f32) (harg16 : arg16.IsWhole) (arg17 : Memref sig .tc .vmem S4096x256 .f32) (harg17 : arg17.IsWhole) (arg18 : Memref sig .tc .vmem S4096x256 .f32) (harg18 : arg18.IsWhole) (arg19 : Memref sig .tc .vmem S4x4096x256 .f32) (harg19 : arg19.IsWhole) (hc0 : ¬cond0_0 i) (hc1 : ¬cond0_1 i)
    (x0 : Vec Ideal S4096x128 .f32) (x1 : Vec Ideal S4096x128 .f32) (x2 : Vec Ideal S256x128 .f32) (x3 : Vec Ideal S256x128 .f32) (x4 : Vec Ideal S256x128 .f32) (x5 : Vec Ideal S256x128 .f32) (x6 : Vec Ideal S256x128 .f32) (x7 : Vec Ideal S256x128 .f32) (x8 : Vec Ideal S256x128 .f32) (x9 : Vec Ideal S256x128 .f32) (x10 : Vec Ideal S1x256 .f32) (x11 : Vec Ideal S1x256 .f32) (x12 : Vec Ideal S1x256 .f32) (x13 : Vec Ideal S1x256 .f32) (x14 : Vec Ideal S4096x256 .f32) (xs0 : Vec Ideal S4x4096x256 .f32) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 = View.canon (stores x0 x1 x2 x3 x4 x5 x6 x7 x8 x9 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S4096x128) hz2, View.ld_unit_zero (S := S256x128) hz2, View.ld_unit_zero (S := S1x256) hz2, View.ld_unit_zero (S := S4096x256) hz2]
  rfl

/-- The last reduction step leaves the accumulator at its four updates too. -/
theorem soutC_eq (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S4096x256 .f32) (harg16 : arg16.IsWhole) (arg17 : Memref sig .tc .vmem S4096x256 .f32) (harg17 : arg17.IsWhole) (arg18 : Memref sig .tc .vmem S4096x256 .f32) (harg18 : arg18.IsWhole) (arg19 : Memref sig .tc .vmem S4x4096x256 .f32) (harg19 : arg19.IsWhole) (hc0 : ¬cond0_0 i) (hc1 : cond0_1 i)
    (x0 : Vec Ideal S4096x128 .f32) (x1 : Vec Ideal S4096x128 .f32) (x2 : Vec Ideal S256x128 .f32) (x3 : Vec Ideal S256x128 .f32) (x4 : Vec Ideal S256x128 .f32) (x5 : Vec Ideal S256x128 .f32) (x6 : Vec Ideal S256x128 .f32) (x7 : Vec Ideal S256x128 .f32) (x8 : Vec Ideal S256x128 .f32) (x9 : Vec Ideal S256x128 .f32) (x10 : Vec Ideal S1x256 .f32) (x11 : Vec Ideal S1x256 .f32) (x12 : Vec Ideal S1x256 .f32) (x13 : Vec Ideal S1x256 .f32) (x14 : Vec Ideal S4096x256 .f32) (xs0 : Vec Ideal S4x4096x256 .f32) :
    sout0_C_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 = View.canon (stores x0 x1 x2 x3 x4 x5 x6 x7 x8 x9 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0)]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S4096x128) hz2, View.ld_unit_zero (S := S256x128) hz2, View.ld_unit_zero (S := S1x256) hz2, View.ld_unit_zero (S := S4096x256) hz2]
  rfl

/-- The last reduction step stores, in the first output block, the epilogue's hidden state over the updated slabs. -/
theorem out15C_eq (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S4096x256 .f32) (harg16 : arg16.IsWhole) (arg17 : Memref sig .tc .vmem S4096x256 .f32) (harg17 : arg17.IsWhole) (arg18 : Memref sig .tc .vmem S4096x256 .f32) (harg18 : arg18.IsWhole) (arg19 : Memref sig .tc .vmem S4x4096x256 .f32) (harg19 : arg19.IsWhole) (hc0 : ¬cond0_0 i) (hc1 : cond0_1 i)
    (x0 : Vec Ideal S4096x128 .f32) (x1 : Vec Ideal S4096x128 .f32) (x2 : Vec Ideal S256x128 .f32) (x3 : Vec Ideal S256x128 .f32) (x4 : Vec Ideal S256x128 .f32) (x5 : Vec Ideal S256x128 .f32) (x6 : Vec Ideal S256x128 .f32) (x7 : Vec Ideal S256x128 .f32) (x8 : Vec Ideal S256x128 .f32) (x9 : Vec Ideal S256x128 .f32) (x10 : Vec Ideal S1x256 .f32) (x11 : Vec Ideal S1x256 .f32) (x12 : Vec Ideal S1x256 .f32) (x13 : Vec Ideal S1x256 .f32) (x14 : Vec Ideal S4096x256 .f32) (xs0 : Vec Ideal S4x4096x256 .f32) :
    out0_C_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0
      = k0_pay2 (arg19.view.readCov (stores x0 x1 x2 x3 x4 x5 x6 x7 x8 x9 xs0) (Rect.unit (s := S4x4096x256) ![0, 0, 0] ![1, 4096, 256] inb_S4x4096x256_S1x4096x256_0_0_0).toLoadRect) x10
          (arg19.view.readCov (stores x0 x1 x2 x3 x4 x5 x6 x7 x8 x9 xs0) (Rect.unit (s := S4x4096x256) ![1, 0, 0] ![1, 4096, 256] inb_S4x4096x256_S1x4096x256_1_0_0).toLoadRect) x11
          (arg19.view.readCov (stores x0 x1 x2 x3 x4 x5 x6 x7 x8 x9 xs0) (Rect.unit (s := S4x4096x256) ![2, 0, 0] ![1, 4096, 256] inb_S4x4096x256_S1x4096x256_2_0_0).toLoadRect) x12
          (arg19.view.readCov (stores x0 x1 x2 x3 x4 x5 x6 x7 x8 x9 xs0) (Rect.unit (s := S4x4096x256) ![3, 0, 0] ![1, 4096, 256] inb_S4x4096x256_S1x4096x256_3_0_0).toLoadRect) x13 x14 := by
  unfold out0_C_15
  rw [View.read_writes_eq_canon _ _ _ (cover0_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0)]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S4096x128) hz2, View.ld_unit_zero (S := S256x128) hz2, View.ld_unit_zero (S := S1x256) hz2, View.ld_unit_zero (S := S4096x256) hz2]
  exact View.canon_unit_zero hz2 _ _

/-- … and, in the second output block, the epilogue's cell state. -/
theorem out16C_eq (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S4096x256 .f32) (harg16 : arg16.IsWhole) (arg17 : Memref sig .tc .vmem S4096x256 .f32) (harg17 : arg17.IsWhole) (arg18 : Memref sig .tc .vmem S4096x256 .f32) (harg18 : arg18.IsWhole) (arg19 : Memref sig .tc .vmem S4x4096x256 .f32) (harg19 : arg19.IsWhole) (hc0 : ¬cond0_0 i) (hc1 : cond0_1 i)
    (x0 : Vec Ideal S4096x128 .f32) (x1 : Vec Ideal S4096x128 .f32) (x2 : Vec Ideal S256x128 .f32) (x3 : Vec Ideal S256x128 .f32) (x4 : Vec Ideal S256x128 .f32) (x5 : Vec Ideal S256x128 .f32) (x6 : Vec Ideal S256x128 .f32) (x7 : Vec Ideal S256x128 .f32) (x8 : Vec Ideal S256x128 .f32) (x9 : Vec Ideal S256x128 .f32) (x10 : Vec Ideal S1x256 .f32) (x11 : Vec Ideal S1x256 .f32) (x12 : Vec Ideal S1x256 .f32) (x13 : Vec Ideal S1x256 .f32) (x14 : Vec Ideal S4096x256 .f32) (xs0 : Vec Ideal S4x4096x256 .f32) :
    out0_C_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0
      = k0_pay1 (arg19.view.readCov (stores x0 x1 x2 x3 x4 x5 x6 x7 x8 x9 xs0) (Rect.unit (s := S4x4096x256) ![0, 0, 0] ![1, 4096, 256] inb_S4x4096x256_S1x4096x256_0_0_0).toLoadRect) x10
          (arg19.view.readCov (stores x0 x1 x2 x3 x4 x5 x6 x7 x8 x9 xs0) (Rect.unit (s := S4x4096x256) ![1, 0, 0] ![1, 4096, 256] inb_S4x4096x256_S1x4096x256_1_0_0).toLoadRect) x11
          (arg19.view.readCov (stores x0 x1 x2 x3 x4 x5 x6 x7 x8 x9 xs0) (Rect.unit (s := S4x4096x256) ![2, 0, 0] ![1, 4096, 256] inb_S4x4096x256_S1x4096x256_2_0_0).toLoadRect) x12 x14 := by
  unfold out0_C_16
  rw [View.read_writes_eq_canon _ _ _ (cover0_C_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0)]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S4096x128) hz2, View.ld_unit_zero (S := S256x128) hz2, View.ld_unit_zero (S := S1x256) hz2, View.ld_unit_zero (S := S4096x256) hz2]
  exact View.canon_unit_zero hz2 _ _

/-- The first reduction step leaves, at `(g, p, q)`, the zero fill plus gate `g`'s tile products. -/
theorem soutA_apply (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S4096x256 .f32) (harg16 : arg16.IsWhole) (arg17 : Memref sig .tc .vmem S4096x256 .f32) (harg17 : arg17.IsWhole) (arg18 : Memref sig .tc .vmem S4096x256 .f32) (harg18 : arg18.IsWhole) (arg19 : Memref sig .tc .vmem S4x4096x256 .f32) (harg19 : arg19.IsWhole) (hc0 : cond0_0 i) (hc1 : ¬cond0_1 i)
    (x0 : Vec Ideal S4096x128 .f32) (x1 : Vec Ideal S4096x128 .f32) (x2 : Vec Ideal S256x128 .f32) (x3 : Vec Ideal S256x128 .f32) (x4 : Vec Ideal S256x128 .f32) (x5 : Vec Ideal S256x128 .f32) (x6 : Vec Ideal S256x128 .f32) (x7 : Vec Ideal S256x128 .f32) (x8 : Vec Ideal S256x128 .f32) (x9 : Vec Ideal S256x128 .f32) (x10 : Vec Ideal S1x256 .f32) (x11 : Vec Ideal S1x256 .f32) (x12 : Vec Ideal S1x256 .f32) (x13 : Vec Ideal S1x256 .f32) (x14 : Vec Ideal S4096x256 .f32) (g : Fin 4) (p : Fin 4096) (q : Fin 256) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 (ix3 g p q)
      = k0_pay3 (F := Ideal) (ix3 g p q) + gateTile x0 x1 x2 x3 x4 x5 x6 x7 x8 x9 g p q := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S4096x128) hz2, View.ld_unit_zero (S := S256x128) hz2, View.ld_unit_zero (S := S1x256) hz2, View.ld_unit_zero (S := S4096x256) hz2]
  match g with
  | ⟨0, _⟩ =>
    refine (canon_miss 0 3 (by decide) (by decide) _ _ _ p q).trans ?_
    refine (canon_miss 0 2 (by decide) (by decide) _ _ _ p q).trans ?_
    refine (canon_miss 0 1 (by decide) (by decide) _ _ _ p q).trans ?_
    refine (canon_hit 0 (by decide) _ _ _ p q).trans ?_
    refine (pay6_apply _ _ _ _ _ p q).trans ?_
    refine congrArg₂ (· + ·) ?_ rfl
    refine (readCov_slab _ _ 0 (by decide) _ 0 p q).trans ?_
    exact canon_whole _ _ _ _
  | ⟨1, _⟩ =>
    refine (canon_miss 1 3 (by decide) (by decide) _ _ _ p q).trans ?_
    refine (canon_miss 1 2 (by decide) (by decide) _ _ _ p q).trans ?_
    refine (canon_hit 1 (by decide) _ _ _ p q).trans ?_
    refine (pay9_apply _ _ _ _ _ p q).trans ?_
    refine congrArg₂ (· + ·) ?_ rfl
    refine (readCov_slab _ _ 1 (by decide) _ 0 p q).trans ?_
    refine (canon_miss 1 0 (by decide) (by decide) _ _ _ p q).trans ?_
    exact canon_whole _ _ _ _
  | ⟨2, _⟩ =>
    refine (canon_miss 2 3 (by decide) (by decide) _ _ _ p q).trans ?_
    refine (canon_hit 2 (by decide) _ _ _ p q).trans ?_
    refine (pay10_apply _ _ _ _ _ p q).trans ?_
    refine congrArg₂ (· + ·) ?_ rfl
    refine (readCov_slab _ _ 2 (by decide) _ 0 p q).trans ?_
    refine (canon_miss 2 1 (by decide) (by decide) _ _ _ p q).trans ?_
    refine (canon_miss 2 0 (by decide) (by decide) _ _ _ p q).trans ?_
    exact canon_whole _ _ _ _
  | ⟨3, _⟩ =>
    refine (canon_hit 3 (by decide) _ _ _ p q).trans ?_
    refine (pay11_apply _ _ _ _ _ p q).trans ?_
    refine congrArg₂ (· + ·) ?_ rfl
    refine (readCov_slab _ _ 3 (by decide) _ 0 p q).trans ?_
    refine (canon_miss 3 2 (by decide) (by decide) _ _ _ p q).trans ?_
    refine (canon_miss 3 1 (by decide) (by decide) _ _ _ p q).trans ?_
    refine (canon_miss 3 0 (by decide) (by decide) _ _ _ p q).trans ?_
    exact canon_whole _ _ _ _

/-! ## The epilogue over the updated slabs -/

/-- The new cell state at `(p, q)` of the block, from the accumulator's slabs, the bias rows and the cell-state block. -/
def cellVal (acc : S4x4096x256.Idx → EReal) (b0 b1 b2 : S1x256.Idx → EReal) (cb : S4096x256.Idx → EReal)
    (p : Fin 4096) (q : Fin 256) : EReal :=
  Ideal.logistic (acc (ix3 (1 : Fin 4) p q) + b1 (ix2 (0 : Fin 1) q)) * cb (ix2 p q)
    + Ideal.logistic (acc (ix3 (0 : Fin 4) p q) + b0 (ix2 (0 : Fin 1) q))
      * Ideal.tanh (acc (ix3 (2 : Fin 4) p q) + b2 (ix2 (0 : Fin 1) q))

/-- The new hidden state at `(p, q)` of the block. -/
def hiddenVal (acc : S4x4096x256.Idx → EReal) (b0 b1 b2 b3 : S1x256.Idx → EReal) (cb : S4096x256.Idx → EReal)
    (p : Fin 4096) (q : Fin 256) : EReal :=
  Ideal.logistic (acc (ix3 (3 : Fin 4) p q) + b3 (ix2 (0 : Fin 1) q)) * Ideal.tanh (cellVal acc b0 b1 b2 cb p q)

/-- The epilogue's cell state, its slab loads read as the updated accumulator. -/
theorem out16_val {sig' : RefSig} {κ : Kind} {sp : Space} (v : View sig' κ sp S4x4096x256 .f32)
    (x0 x1 : Vec Ideal S4096x128 .f32) (x2 x3 x4 x5 x6 x7 x8 x9 : Vec Ideal S256x128 .f32) (x10 x11 x12 : Vec Ideal S1x256 .f32)
    (x14 : Vec Ideal S4096x256 .f32) (xs0 : Vec Ideal S4x4096x256 .f32) (p : Fin 4096) (q : Fin 256) :
    k0_pay1 (F := Ideal) (v.readCov (stores x0 x1 x2 x3 x4 x5 x6 x7 x8 x9 xs0) (Rect.unit (s := S4x4096x256) ![0, 0, 0] ![1, 4096, 256] inb_S4x4096x256_S1x4096x256_0_0_0).toLoadRect) x10 (v.readCov (stores x0 x1 x2 x3 x4 x5 x6 x7 x8 x9 xs0) (Rect.unit (s := S4x4096x256) ![1, 0, 0] ![1, 4096, 256] inb_S4x4096x256_S1x4096x256_1_0_0).toLoadRect) x11 (v.readCov (stores x0 x1 x2 x3 x4 x5 x6 x7 x8 x9 xs0) (Rect.unit (s := S4x4096x256) ![2, 0, 0] ![1, 4096, 256] inb_S4x4096x256_S1x4096x256_2_0_0).toLoadRect) x12 x14 (ix2 p q)
      = cellVal (View.canon (stores x0 x1 x2 x3 x4 x5 x6 x7 x8 x9 xs0)) x10 x11 x12 x14 p q := by
  refine (pay1_apply _ _ _ _ _ _ _ p q).trans ?_
  rw [readCov_slab v _ 0 (by decide) _ 0 p q, readCov_slab v _ 1 (by decide) _ 0 p q, readCov_slab v _ 2 (by decide) _ 0 p q]
  rfl

/-- The epilogue's hidden state, likewise. -/
theorem out15_val {sig' : RefSig} {κ : Kind} {sp : Space} (v : View sig' κ sp S4x4096x256 .f32)
    (x0 x1 : Vec Ideal S4096x128 .f32) (x2 x3 x4 x5 x6 x7 x8 x9 : Vec Ideal S256x128 .f32) (x10 x11 x12 x13 : Vec Ideal S1x256 .f32)
    (x14 : Vec Ideal S4096x256 .f32) (xs0 : Vec Ideal S4x4096x256 .f32) (p : Fin 4096) (q : Fin 256) :
    k0_pay2 (F := Ideal) (v.readCov (stores x0 x1 x2 x3 x4 x5 x6 x7 x8 x9 xs0) (Rect.unit (s := S4x4096x256) ![0, 0, 0] ![1, 4096, 256] inb_S4x4096x256_S1x4096x256_0_0_0).toLoadRect) x10 (v.readCov (stores x0 x1 x2 x3 x4 x5 x6 x7 x8 x9 xs0) (Rect.unit (s := S4x4096x256) ![1, 0, 0] ![1, 4096, 256] inb_S4x4096x256_S1x4096x256_1_0_0).toLoadRect) x11 (v.readCov (stores x0 x1 x2 x3 x4 x5 x6 x7 x8 x9 xs0) (Rect.unit (s := S4x4096x256) ![2, 0, 0] ![1, 4096, 256] inb_S4x4096x256_S1x4096x256_2_0_0).toLoadRect) x12 (v.readCov (stores x0 x1 x2 x3 x4 x5 x6 x7 x8 x9 xs0) (Rect.unit (s := S4x4096x256) ![3, 0, 0] ![1, 4096, 256] inb_S4x4096x256_S1x4096x256_3_0_0).toLoadRect) x13 x14 (ix2 p q)
      = hiddenVal (View.canon (stores x0 x1 x2 x3 x4 x5 x6 x7 x8 x9 xs0)) x10 x11 x12 x13 x14 p q := by
  refine (pay2_apply _ _ _ _ _ _ _ _ _ p q).trans ?_
  rw [out16_val v x0 x1 x2 x3 x4 x5 x6 x7 x8 x9 x10 x11 x12 x14 xs0 p q, readCov_slab v _ 3 (by decide) _ 0 p q]
  rfl

end Cert.Lstm.Pieces

end
-- ==== Proof.Accum.lean ====
/-
  The accumulator over a run of reduction steps.

  Grid point `n = 16·j + s` handles output tile `j` (256 columns) and reduction tile `s` (128 columns). What it adds to the
  accumulator's entry `(g, p, q)` depends on the point alone: gate `g`'s two tile products of the blocks the point holds.
  The first step of a run (`s = 0`) stores the zero fill plus its addend, each later step adds its own, so after step `s` the
  entry holds the zero fill plus the addends of steps `0 … s` of the run.
-/
import proofs.«181231_j81518479278547_2_alg».proof.Proof.Gen.KernelIdeal.Value
import proofs.«181231_j81518479278547_2_alg».proof.Proof.Pieces

set_option maxRecDepth 16384

noncomputable section

namespace Cert.Lstm.Accum

open Cert.KernelIdeal Cert.KernelIdeal.Gen Cert.KernelIdeal.Value Idealize.ShloMosaic Idealize.ShloMosaic.TcCoe Idealize.SL.Sem
open Idealize.ShloMosaic.ValueIdx Cert.Lstm.Pay Cert.Lstm.Pieces

variable (m : (ℓ : Loc nD τ sig) → Buf (Elt Ideal) ℓ)

/-- What grid point `n` adds to the accumulator's entry `i = (g, p, q)`: gate `g`'s tile products of the point's blocks. -/
def addend (c : Dev nD) (n : ℕ) (i : S4x4096x256.Idx) : EReal :=
  if h : n < cfg0.N then
    gateTile (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) (i 0) (i 1) (i 2)
  else 0

/-- The first step of a run leaves the zero fill plus its addend. -/
theorem step_first (c : Dev nD) (n : ℕ) (h : n < cfg0.N) (h0 : n % 16 = 0) (i : S4x4096x256.Idx) :
    scAt0_0 m c n h (VS0_0.read (Elt Ideal) VS0_0.junk) i = k0_pay3 (F := Ideal) i + addend m c n i := by
  have hN : n < 128 := lt_of_lt_of_eq h N_0
  have h1 : ¬ n % 16 = 15 := by omega
  obtain ⟨g, p, q, rfl⟩ : ∃ (g : Fin 4) (p : Fin 4096) (q : Fin 256), i = ix3 g p q := ⟨i 0, i 1, i 2, eq_ix3 i⟩
  unfold scAt0_0 addend
  rw [dif_pos h0, dif_neg h1, dif_pos h]
  exact soutA_apply c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) (ms0_12 (⟨n, h⟩ : Fin cfg0.N)) (hs0_12 (⟨n, h⟩ : Fin cfg0.N)) (ms0_13 (⟨n, h⟩ : Fin cfg0.N)) (hs0_13 (⟨n, h⟩ : Fin cfg0.N)) (ms0_14 (⟨n, h⟩ : Fin cfg0.N)) (hs0_14 (⟨n, h⟩ : Fin cfg0.N)) (ms0_15 (⟨n, h⟩ : Fin cfg0.N)) (hs0_15 (⟨n, h⟩ : Fin cfg0.N)) (ms0_16 (⟨n, h⟩ : Fin cfg0.N)) (hs0_16 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) (iblk m c 10 (⟨n, h⟩ : Fin cfg0.N)) (iblk m c 11 (⟨n, h⟩ : Fin cfg0.N)) (iblk m c 12 (⟨n, h⟩ : Fin cfg0.N)) (iblk m c 13 (⟨n, h⟩ : Fin cfg0.N)) (iblk m c 14 (⟨n, h⟩ : Fin cfg0.N)) g p q

/-- A later step adds its addend to what the step before left. -/
theorem step_next (c : Dev nD) (n : ℕ) (h : n < cfg0.N) (h0 : ¬ n % 16 = 0) (acc : Vec Ideal S4x4096x256 .f32)
    (i : S4x4096x256.Idx) :
    scAt0_0 m c n h acc i = acc i + addend m c n i := by
  obtain ⟨g, p, q, rfl⟩ : ∃ (g : Fin 4) (p : Fin 4096) (q : Fin 256), i = ix3 g p q := ⟨i 0, i 1, i 2, eq_ix3 i⟩
  by_cases h1 : n % 16 = 15
  · unfold scAt0_0 addend
    rw [dif_neg h0, dif_pos h1, dif_pos h]
    refine (congrFun (soutC_eq c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) (ms0_12 (⟨n, h⟩ : Fin cfg0.N)) (hs0_12 (⟨n, h⟩ : Fin cfg0.N)) (ms0_13 (⟨n, h⟩ : Fin cfg0.N)) (hs0_13 (⟨n, h⟩ : Fin cfg0.N)) (ms0_14 (⟨n, h⟩ : Fin cfg0.N)) (hs0_14 (⟨n, h⟩ : Fin cfg0.N)) (ms0_15 (⟨n, h⟩ : Fin cfg0.N)) (hs0_15 (⟨n, h⟩ : Fin cfg0.N)) (ms0_16 (⟨n, h⟩ : Fin cfg0.N)) (hs0_16 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) (iblk m c 10 (⟨n, h⟩ : Fin cfg0.N)) (iblk m c 11 (⟨n, h⟩ : Fin cfg0.N)) (iblk m c 12 (⟨n, h⟩ : Fin cfg0.N)) (iblk m c 13 (⟨n, h⟩ : Fin cfg0.N)) (iblk m c 14 (⟨n, h⟩ : Fin cfg0.N)) acc) (ix3 g p q)).trans ?_
    exact stores_apply (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) acc g p q
  · unfold scAt0_0 addend
    rw [dif_neg h0, dif_neg h1, dif_pos h]
    refine (congrFun (soutB_eq c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) (ms0_12 (⟨n, h⟩ : Fin cfg0.N)) (hs0_12 (⟨n, h⟩ : Fin cfg0.N)) (ms0_13 (⟨n, h⟩ : Fin cfg0.N)) (hs0_13 (⟨n, h⟩ : Fin cfg0.N)) (ms0_14 (⟨n, h⟩ : Fin cfg0.N)) (hs0_14 (⟨n, h⟩ : Fin cfg0.N)) (ms0_15 (⟨n, h⟩ : Fin cfg0.N)) (hs0_15 (⟨n, h⟩ : Fin cfg0.N)) (ms0_16 (⟨n, h⟩ : Fin cfg0.N)) (hs0_16 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) (iblk m c 10 (⟨n, h⟩ : Fin cfg0.N)) (iblk m c 11 (⟨n, h⟩ : Fin cfg0.N)) (iblk m c 12 (⟨n, h⟩ : Fin cfg0.N)) (iblk m c 13 (⟨n, h⟩ : Fin cfg0.N)) (iblk m c 14 (⟨n, h⟩ : Fin cfg0.N)) acc) (ix3 g p q)).trans ?_
    exact stores_apply (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) acc g p q

/-- After point `t` the accumulator holds the zero fill plus the addends of the run's steps up to `t`. -/
theorem scratch_at (c : Dev nD) (t : Fin cfg0.N) (i : S4x4096x256.Idx) :
    (outsAt0 m c t.val t.isLt).2.2 i
      = k0_pay3 (F := Ideal) i + ∑ s ∈ Finset.range (t.val % 16 + 1), addend m c (16 * (t.val / 16) + s) i := by
  rw [soutsAt0_0_eq m c t]
  exact Pipeline.accAt_add_apply (fun n h => scAt0_0 m c n h (VS0_0.read (Elt Ideal) VS0_0.junk)) (scAt0_0 m c)
    (k0_pay3 (F := Ideal)) (addend m c) (16 * (t.val / 16)) 15
    (fun h i => step_first m c _ h (by omega) i)
    (fun n h acc i hb he => step_next m c n h (by omega) acc i)
    (t.val % 16) (by omega) _ i

end Cert.Lstm.Accum

end
-- ==== Proof.BlockReads.lean ====
/-
  The windows' blocks, read at an entry of the argument arrays.

  Grid point `t = 16·j + s` is output tile `j` and reduction tile `s`. There the two activation windows hold columns
  `128·s …` of `x` and `h`, a weight window holds rows `256·j …`, columns `128·s …` of its matrix, a bias window holds
  columns `256·j …` of the row `bx + bh` the host formed before the call, and the cell-state window and both output windows
  sit at columns `256·j …`. A block's coordinate in its array is always block index × block size + the coordinate inside.
-/
import proofs.«181231_j81518479278547_2_alg».proof.Proof.Gen.KernelIdeal.Value
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.Lstm.BlockReads

open Cert.KernelIdeal Cert.KernelIdeal.Gen Cert.KernelIdeal.Value Idealize.ShloMosaic Idealize.ShloMosaic.TcCoe Idealize.SL.Sem
open Idealize.ShloMosaic.ValueIdx Idealize.ShloMosaic.StableHlo

/-- The activation windows' block indices: row block 0, column block the reduction tile. -/
theorem idx_xh : ∀ t : Fin cfg0.N, win0_0.index t (0 : Fin 2) = 0 ∧ win0_0.index t (1 : Fin 2) = t.val % 16
    ∧ win0_1.index t (0 : Fin 2) = 0 ∧ win0_1.index t (1 : Fin 2) = t.val % 16 :=
  (by decide +kernel : ∀ t : Fin grid0.N, _)

/-- The weight windows' block indices: row block the output tile, column block the reduction tile. -/
theorem idx_w : ∀ t : Fin cfg0.N, win0_2.index t (0 : Fin 2) = t.val / 16 ∧ win0_2.index t (1 : Fin 2) = t.val % 16
    ∧ win0_3.index t (0 : Fin 2) = t.val / 16 ∧ win0_3.index t (1 : Fin 2) = t.val % 16
    ∧ win0_4.index t (0 : Fin 2) = t.val / 16 ∧ win0_4.index t (1 : Fin 2) = t.val % 16
    ∧ win0_5.index t (0 : Fin 2) = t.val / 16 ∧ win0_5.index t (1 : Fin 2) = t.val % 16
    ∧ win0_6.index t (0 : Fin 2) = t.val / 16 ∧ win0_6.index t (1 : Fin 2) = t.val % 16
    ∧ win0_7.index t (0 : Fin 2) = t.val / 16 ∧ win0_7.index t (1 : Fin 2) = t.val % 16
    ∧ win0_8.index t (0 : Fin 2) = t.val / 16 ∧ win0_8.index t (1 : Fin 2) = t.val % 16
    ∧ win0_9.index t (0 : Fin 2) = t.val / 16 ∧ win0_9.index t (1 : Fin 2) = t.val % 16 :=
  (by decide +kernel : ∀ t : Fin grid0.N, _)

/-- The bias, cell-state and output windows' block indices: row block 0, column block the output tile. -/
theorem idx_out : ∀ t : Fin cfg0.N, win0_10.index t (0 : Fin 2) = 0 ∧ win0_10.index t (1 : Fin 2) = t.val / 16
    ∧ win0_11.index t (0 : Fin 2) = 0 ∧ win0_11.index t (1 : Fin 2) = t.val / 16
    ∧ win0_12.index t (0 : Fin 2) = 0 ∧ win0_12.index t (1 : Fin 2) = t.val / 16
    ∧ win0_13.index t (0 : Fin 2) = 0 ∧ win0_13.index t (1 : Fin 2) = t.val / 16
    ∧ win0_14.index t (0 : Fin 2) = 0 ∧ win0_14.index t (1 : Fin 2) = t.val / 16
    ∧ win0_15.index t (0 : Fin 2) = 0 ∧ win0_15.index t (1 : Fin 2) = t.val / 16
    ∧ win0_16.index t (0 : Fin 2) = 0 ∧ win0_16.index t (1 : Fin 2) = t.val / 16 :=
  (by decide +kernel : ∀ t : Fin grid0.N, _)

variable (m : (ℓ : Loc nD τ sig) → Buf (Elt Ideal) ℓ)

/-- The first activation window's block at point `t` is columns `128·(t % 16) …` of `x`. -/
theorem x_blk (c : Dev nD) (t : Fin cfg0.N) (p : Fin 4096) (cc : Fin 128) (k : Fin 2048)
    (hk : k.val = 128 * (t.val % 16) + cc.val) :
    iblk m c 0 t (ix2 p cc) = (m ((c : Thread nD τ).loc main_arg0)) (ix2 p k) := by
  show V m c main_arg0 (((cfg0.win 0).blk t).view.emb (ix2 p cc)) = _
  rw [V_main_arg0]
  refine congrArg _ (funext fun a => Fin.ext ?_)
  obtain ⟨e0, e1, -, -⟩ := idx_xh t
  match a with
  | ⟨0, _⟩ => show win0_0.index t (0 : Fin 2) * 4096 + 1 * p.val = p.val; rw [e0]; omega
  | ⟨1, _⟩ => show win0_0.index t (1 : Fin 2) * 128 + 1 * cc.val = k.val; rw [e1, hk]; omega

/-- The second activation window's block at point `t` is columns `128·(t % 16) …` of `h`. -/
theorem h_blk (c : Dev nD) (t : Fin cfg0.N) (p : Fin 4096) (cc : Fin 128) (k : Fin 2048)
    (hk : k.val = 128 * (t.val % 16) + cc.val) :
    iblk m c 1 t (ix2 p cc) = (m ((c : Thread nD τ).loc main_arg1)) (ix2 p k) := by
  show V m c main_arg1 (((cfg0.win 1).blk t).view.emb (ix2 p cc)) = _
  rw [V_main_arg1]
  refine congrArg _ (funext fun a => Fin.ext ?_)
  obtain ⟨-, -, e0, e1⟩ := idx_xh t
  match a with
  | ⟨0, _⟩ => show win0_1.index t (0 : Fin 2) * 4096 + 1 * p.val = p.val; rw [e0]; omega
  | ⟨1, _⟩ => show win0_1.index t (1 : Fin 2) * 128 + 1 * cc.val = k.val; rw [e1, hk]; omega

/-- Window 2's block at point `t` is the [256, 128] tile of its weight matrix at row tile `t / 16`, column tile `t % 16`. -/
theorem w2_blk (c : Dev nD) (t : Fin cfg0.N) (r : Fin 256) (cc : Fin 128) (k1 k2 : Fin 2048)
    (h1 : k1.val = 256 * (t.val / 16) + r.val) (h2 : k2.val = 128 * (t.val % 16) + cc.val) :
    iblk m c 2 t (ix2 r cc) = (m ((c : Thread nD τ).loc main_arg3)) (ix2 k1 k2) := by
  show V m c main_arg3 (((cfg0.win 2).blk t).view.emb (ix2 r cc)) = _
  rw [V_main_arg3]
  refine congrArg _ (funext fun a => Fin.ext ?_)
  obtain ⟨e0, e1, -, -, -, -, -, -, -, -, -, -, -, -, -, -⟩ := idx_w t
  match a with
  | ⟨0, _⟩ => show win0_2.index t (0 : Fin 2) * 256 + 1 * r.val = k1.val; rw [e0, h1]; omega
  | ⟨1, _⟩ => show win0_2.index t (1 : Fin 2) * 128 + 1 * cc.val = k2.val; rw [e1, h2]; omega

/-- Window 3's block at point `t` is the [256, 128] tile of its weight matrix at row tile `t / 16`, column tile `t % 16`. -/
theorem w3_blk (c : Dev nD) (t : Fin cfg0.N) (r : Fin 256) (cc : Fin 128) (k1 k2 : Fin 2048)
    (h1 : k1.val = 256 * (t.val / 16) + r.val) (h2 : k2.val = 128 * (t.val % 16) + cc.val) :
    iblk m c 3 t (ix2 r cc) = (m ((c : Thread nD τ).loc main_arg7)) (ix2 k1 k2) := by
  show V m c main_arg7 (((cfg0.win 3).blk t).view.emb (ix2 r cc)) = _
  rw [V_main_arg7]
  refine congrArg _ (funext fun a => Fin.ext ?_)
  obtain ⟨-, -, e0, e1, -, -, -, -, -, -, -, -, -, -, -, -⟩ := idx_w t
  match a with
  | ⟨0, _⟩ => show win0_3.index t (0 : Fin 2) * 256 + 1 * r.val = k1.val; rw [e0, h1]; omega
  | ⟨1, _⟩ => show win0_3.index t (1 : Fin 2) * 128 + 1 * cc.val = k2.val; rw [e1, h2]; omega

/-- Window 4's block at point `t` is the [256, 128] tile of its weight matrix at row tile `t / 16`, column tile `t % 16`. -/
theorem w4_blk (c : Dev nD) (t : Fin cfg0.N) (r : Fin 256) (cc : Fin 128) (k1 k2 : Fin 2048)
    (h1 : k1.val = 256 * (t.val / 16) + r.val) (h2 : k2.val = 128 * (t.val % 16) + cc.val) :
    iblk m c 4 t (ix2 r cc) = (m ((c : Thread nD τ).loc main_arg11)) (ix2 k1 k2) := by
  show V m c main_arg11 (((cfg0.win 4).blk t).view.emb (ix2 r cc)) = _
  rw [V_main_arg11]
  refine congrArg _ (funext fun a => Fin.ext ?_)
  obtain ⟨-, -, -, -, e0, e1, -, -, -, -, -, -, -, -, -, -⟩ := idx_w t
  match a with
  | ⟨0, _⟩ => show win0_4.index t (0 : Fin 2) * 256 + 1 * r.val = k1.val; rw [e0, h1]; omega
  | ⟨1, _⟩ => show win0_4.index t (1 : Fin 2) * 128 + 1 * cc.val = k2.val; rw [e1, h2]; omega

/-- Window 5's block at point `t` is the [256, 128] tile of its weight matrix at row tile `t / 16`, column tile `t % 16`. -/
theorem w5_blk (c : Dev nD) (t : Fin cfg0.N) (r : Fin 256) (cc : Fin 128) (k1 k2 : Fin 2048)
    (h1 : k1.val = 256 * (t.val / 16) + r.val) (h2 : k2.val = 128 * (t.val % 16) + cc.val) :
    iblk m c 5 t (ix2 r cc) = (m ((c : Thread nD τ).loc main_arg15)) (ix2 k1 k2) := by
  show V m c main_arg15 (((cfg0.win 5).blk t).view.emb (ix2 r cc)) = _
  rw [V_main_arg15]
  refine congrArg _ (funext fun a => Fin.ext ?_)
  obtain ⟨-, -, -, -, -, -, e0, e1, -, -, -, -, -, -, -, -⟩ := idx_w t
  match a with
  | ⟨0, _⟩ => show win0_5.index t (0 : Fin 2) * 256 + 1 * r.val = k1.val; rw [e0, h1]; omega
  | ⟨1, _⟩ => show win0_5.index t (1 : Fin 2) * 128 + 1 * cc.val = k2.val; rw [e1, h2]; omega

/-- Window 6's block at point `t` is the [256, 128] tile of its weight matrix at row tile `t / 16`, column tile `t % 16`. -/
theorem w6_blk (c : Dev nD) (t : Fin cfg0.N) (r : Fin 256) (cc : Fin 128) (k1 k2 : Fin 2048)
    (h1 : k1.val = 256 * (t.val / 16) + r.val) (h2 : k2.val = 128 * (t.val % 16) + cc.val) :
    iblk m c 6 t (ix2 r cc) = (m ((c : Thread nD τ).loc main_arg5)) (ix2 k1 k2) := by
  show V m c main_arg5 (((cfg0.win 6).blk t).view.emb (ix2 r cc)) = _
  rw [V_main_arg5]
  refine congrArg _ (funext fun a => Fin.ext ?_)
  obtain ⟨-, -, -, -, -, -, -, -, e0, e1, -, -, -, -, -, -⟩ := idx_w t
  match a with
  | ⟨0, _⟩ => show win0_6.index t (0 : Fin 2) * 256 + 1 * r.val = k1.val; rw [e0, h1]; omega
  | ⟨1, _⟩ => show win0_6.index t (1 : Fin 2) * 128 + 1 * cc.val = k2.val; rw [e1, h2]; omega

/-- Window 7's block at point `t` is the [256, 128] tile of its weight matrix at row tile `t / 16`, column tile `t % 16`. -/
theorem w7_blk (c : Dev nD) (t : Fin cfg0.N) (r : Fin 256) (cc : Fin 128) (k1 k2 : Fin 2048)
    (h1 : k1.val = 256 * (t.val / 16) + r.val) (h2 : k2.val = 128 * (t.val % 16) + cc.val) :
    iblk m c 7 t (ix2 r cc) = (m ((c : Thread nD τ).loc main_arg9)) (ix2 k1 k2) := by
  show V m c main_arg9 (((cfg0.win 7).blk t).view.emb (ix2 r cc)) = _
  rw [V_main_arg9]
  refine congrArg _ (funext fun a => Fin.ext ?_)
  obtain ⟨-, -, -, -, -, -, -, -, -, -, e0, e1, -, -, -, -⟩ := idx_w t
  match a with
  | ⟨0, _⟩ => show win0_7.index t (0 : Fin 2) * 256 + 1 * r.val = k1.val; rw [e0, h1]; omega
  | ⟨1, _⟩ => show win0_7.index t (1 : Fin 2) * 128 + 1 * cc.val = k2.val; rw [e1, h2]; omega

/-- Window 8's block at point `t` is the [256, 128] tile of its weight matrix at row tile `t / 16`, column tile `t % 16`. -/
theorem w8_blk (c : Dev nD) (t : Fin cfg0.N) (r : Fin 256) (cc : Fin 128) (k1 k2 : Fin 2048)
    (h1 : k1.val = 256 * (t.val / 16) + r.val) (h2 : k2.val = 128 * (t.val % 16) + cc.val) :
    iblk m c 8 t (ix2 r cc) = (m ((c : Thread nD τ).loc main_arg13)) (ix2 k1 k2) := by
  show V m c main_arg13 (((cfg0.win 8).blk t).view.emb (ix2 r cc)) = _
  rw [V_main_arg13]
  refine congrArg _ (funext fun a => Fin.ext ?_)
  obtain ⟨-, -, -, -, -, -, -, -, -, -, -, -, e0, e1, -, -⟩ := idx_w t
  match a with
  | ⟨0, _⟩ => show win0_8.index t (0 : Fin 2) * 256 + 1 * r.val = k1.val; rw [e0, h1]; omega
  | ⟨1, _⟩ => show win0_8.index t (1 : Fin 2) * 128 + 1 * cc.val = k2.val; rw [e1, h2]; omega

/-- Window 9's block at point `t` is the [256, 128] tile of its weight matrix at row tile `t / 16`, column tile `t % 16`. -/
theorem w9_blk (c : Dev nD) (t : Fin cfg0.N) (r : Fin 256) (cc : Fin 128) (k1 k2 : Fin 2048)
    (h1 : k1.val = 256 * (t.val / 16) + r.val) (h2 : k2.val = 128 * (t.val % 16) + cc.val) :
    iblk m c 9 t (ix2 r cc) = (m ((c : Thread nD τ).loc main_arg17)) (ix2 k1 k2) := by
  show V m c main_arg17 (((cfg0.win 9).blk t).view.emb (ix2 r cc)) = _
  rw [V_main_arg17]
  refine congrArg _ (funext fun a => Fin.ext ?_)
  obtain ⟨-, -, -, -, -, -, -, -, -, -, -, -, -, -, e0, e1⟩ := idx_w t
  match a with
  | ⟨0, _⟩ => show win0_9.index t (0 : Fin 2) * 256 + 1 * r.val = k1.val; rw [e0, h1]; omega
  | ⟨1, _⟩ => show win0_9.index t (1 : Fin 2) * 128 + 1 * cc.val = k2.val; rw [e1, h2]; omega

/-- Window 10's block at point `t` is columns `256·(t / 16) …` of the row of the two bias vectors' sum. -/
theorem b10_blk (c : Dev nD) (t : Fin cfg0.N) (u : Fin 1) (q : Fin 256) (k : Fin 2048)
    (hk : k.val = 256 * (t.val / 16) + q.val) :
    iblk m c 10 t (ix2 u q) = HAdd.hAdd (α := EReal) (β := EReal) (γ := EReal) ((m ((c : Thread nD τ).loc main_arg4)) (ix1 k)) ((m ((c : Thread nD τ).loc main_arg6)) (ix1 k)) := by
  show V m c main_v1 (((cfg0.win 10).blk t).view.emb (ix2 u q)) = _
  have e : (V m c main_v1 : S1x2048.Idx → EReal)
      = shapeCast S1x2048 (addf (F := Ideal) (φ := .f32) (m ((c : Thread nD τ).loc main_arg4)) (m ((c : Thread nD τ).loc main_arg6))) shapeCasts_S2048_S1x2048 := by
    dsimp only [V, hostOps0]; after_results; rfl
  rw [e]
  obtain ⟨e0, e1, -, -, -, -, -, -, -, -, -, -, -, -⟩ := idx_out t
  have ei : ((cfg0.win 10).blk t).view.emb (ix2 u q) = ix2 (0 : Fin 1) k := funext fun a => Fin.ext (by
    match a with
    | ⟨0, _⟩ => show win0_10.index t (0 : Fin 2) * 1 + 1 * u.val = 0; rw [e0]; omega
    | ⟨1, _⟩ => show win0_10.index t (1 : Fin 2) * 256 + 1 * q.val = k.val; rw [e1, hk]; omega)
  rw [ei]
  exact shapeCast_a_1a_apply _ _ 0 k

/-- Window 11's block at point `t` is columns `256·(t / 16) …` of the row of the two bias vectors' sum. -/
theorem b11_blk (c : Dev nD) (t : Fin cfg0.N) (u : Fin 1) (q : Fin 256) (k : Fin 2048)
    (hk : k.val = 256 * (t.val / 16) + q.val) :
    iblk m c 11 t (ix2 u q) = HAdd.hAdd (α := EReal) (β := EReal) (γ := EReal) ((m ((c : Thread nD τ).loc main_arg8)) (ix1 k)) ((m ((c : Thread nD τ).loc main_arg10)) (ix1 k)) := by
  show V m c main_v3 (((cfg0.win 11).blk t).view.emb (ix2 u q)) = _
  have e : (V m c main_v3 : S1x2048.Idx → EReal)
      = shapeCast S1x2048 (addf (F := Ideal) (φ := .f32) (m ((c : Thread nD τ).loc main_arg8)) (m ((c : Thread nD τ).loc main_arg10))) shapeCasts_S2048_S1x2048 := by
    dsimp only [V, hostOps0]; after_results; rfl
  rw [e]
  obtain ⟨-, -, e0, e1, -, -, -, -, -, -, -, -, -, -⟩ := idx_out t
  have ei : ((cfg0.win 11).blk t).view.emb (ix2 u q) = ix2 (0 : Fin 1) k := funext fun a => Fin.ext (by
    match a with
    | ⟨0, _⟩ => show win0_11.index t (0 : Fin 2) * 1 + 1 * u.val = 0; rw [e0]; omega
    | ⟨1, _⟩ => show win0_11.index t (1 : Fin 2) * 256 + 1 * q.val = k.val; rw [e1, hk]; omega)
  rw [ei]
  exact shapeCast_a_1a_apply _ _ 0 k

/-- Window 12's block at point `t` is columns `256·(t / 16) …` of the row of the two bias vectors' sum. -/
theorem b12_blk (c : Dev nD) (t : Fin cfg0.N) (u : Fin 1) (q : Fin 256) (k : Fin 2048)
    (hk : k.val = 256 * (t.val / 16) + q.val) :
    iblk m c 12 t (ix2 u q) = HAdd.hAdd (α := EReal) (β := EReal) (γ := EReal) ((m ((c : Thread nD τ).loc main_arg12)) (ix1 k)) ((m ((c : Thread nD τ).loc main_arg14)) (ix1 k)) := by
  show V m c main_v5 (((cfg0.win 12).blk t).view.emb (ix2 u q)) = _
  have e : (V m c main_v5 : S1x2048.Idx → EReal)
      = shapeCast S1x2048 (addf (F := Ideal) (φ := .f32) (m ((c : Thread nD τ).loc main_arg12)) (m ((c : Thread nD τ).loc main_arg14))) shapeCasts_S2048_S1x2048 := by
    dsimp only [V, hostOps0]; after_results; rfl
  rw [e]
  obtain ⟨-, -, -, -, e0, e1, -, -, -, -, -, -, -, -⟩ := idx_out t
  have ei : ((cfg0.win 12).blk t).view.emb (ix2 u q) = ix2 (0 : Fin 1) k := funext fun a => Fin.ext (by
    match a with
    | ⟨0, _⟩ => show win0_12.index t (0 : Fin 2) * 1 + 1 * u.val = 0; rw [e0]; omega
    | ⟨1, _⟩ => show win0_12.index t (1 : Fin 2) * 256 + 1 * q.val = k.val; rw [e1, hk]; omega)
  rw [ei]
  exact shapeCast_a_1a_apply _ _ 0 k

/-- Window 13's block at point `t` is columns `256·(t / 16) …` of the row of the two bias vectors' sum. -/
theorem b13_blk (c : Dev nD) (t : Fin cfg0.N) (u : Fin 1) (q : Fin 256) (k : Fin 2048)
    (hk : k.val = 256 * (t.val / 16) + q.val) :
    iblk m c 13 t (ix2 u q) = HAdd.hAdd (α := EReal) (β := EReal) (γ := EReal) ((m ((c : Thread nD τ).loc main_arg16)) (ix1 k)) ((m ((c : Thread nD τ).loc main_arg18)) (ix1 k)) := by
  show V m c main_v7 (((cfg0.win 13).blk t).view.emb (ix2 u q)) = _
  have e : (V m c main_v7 : S1x2048.Idx → EReal)
      = shapeCast S1x2048 (addf (F := Ideal) (φ := .f32) (m ((c : Thread nD τ).loc main_arg16)) (m ((c : Thread nD τ).loc main_arg18))) shapeCasts_S2048_S1x2048 := by
    dsimp only [V, hostOps0]; after_results; rfl
  rw [e]
  obtain ⟨-, -, -, -, -, -, e0, e1, -, -, -, -, -, -⟩ := idx_out t
  have ei : ((cfg0.win 13).blk t).view.emb (ix2 u q) = ix2 (0 : Fin 1) k := funext fun a => Fin.ext (by
    match a with
    | ⟨0, _⟩ => show win0_13.index t (0 : Fin 2) * 1 + 1 * u.val = 0; rw [e0]; omega
    | ⟨1, _⟩ => show win0_13.index t (1 : Fin 2) * 256 + 1 * q.val = k.val; rw [e1, hk]; omega)
  rw [ei]
  exact shapeCast_a_1a_apply _ _ 0 k

/-- The cell-state window's block at point `t` is columns `256·(t / 16) …` of `c`. -/
theorem c_blk (c : Dev nD) (t : Fin cfg0.N) (p : Fin 4096) (q : Fin 256) (k : Fin 2048)
    (hk : k.val = 256 * (t.val / 16) + q.val) :
    iblk m c 14 t (ix2 p q) = (m ((c : Thread nD τ).loc main_arg2)) (ix2 p k) := by
  show V m c main_arg2 (((cfg0.win 14).blk t).view.emb (ix2 p q)) = _
  rw [V_main_arg2]
  refine congrArg _ (funext fun a => Fin.ext ?_)
  obtain ⟨-, -, -, -, -, -, -, -, e0, e1, -, -, -, -⟩ := idx_out t
  match a with
  | ⟨0, _⟩ => show win0_14.index t (0 : Fin 2) * 4096 + 1 * p.val = p.val; rw [e0]; omega
  | ⟨1, _⟩ => show win0_14.index t (1 : Fin 2) * 256 + 1 * q.val = k.val; rw [e1, hk]; omega

end Cert.Lstm.BlockReads

end
-- ==== Proof.Final.lean ====
/-
  The two result arrays after the run.

  Output tile `j` (columns `256·j …` of both results) is written back once, at the last reduction step `t = 16·j + 15`.
  By then each gate's slab holds the zero fill plus all sixteen reduction tiles' addends, which with the gate's bias row
  is the gate's pre-activation (the tiled grouping of the specification); so the epilogue's two blocks are the
  specification's new hidden and cell states at columns `256·j …`. The eight write-backs tile both arrays.
-/
import proofs.«181231_j81518479278547_2_alg».proof.Proof.Accum
import proofs.«181231_j81518479278547_2_alg».proof.Proof.BlockReads
import proofs.«181231_j81518479278547_2_alg».proof.Proof.Spec
import Idealize.ShloMosaic.PureOps.Ideal.Laws

set_option maxRecDepth 16384

noncomputable section

namespace Cert.Lstm.Final

open Cert.KernelIdeal Cert.KernelIdeal.Gen Cert.KernelIdeal.Value Idealize.ShloMosaic Idealize.ShloMosaic.TcCoe Idealize.SL.Sem
open Idealize.ShloMosaic.ValueIdx Cert.Lstm Cert.Lstm.Pay Cert.Lstm.Pieces Cert.Lstm.Accum Cert.Lstm.BlockReads
open Idealize.ShloMosaic.Pipeline (Dat)

variable (m : (ℓ : Loc nD τ sig) → Buf (Elt Ideal) ℓ) (ρ : Dev nD → PrngReg)

/-- The zero fill is zero. -/
theorem pay3_zero (i : S4x4096x256.Idx) : k0_pay3 (F := Ideal) i = 0 := by
  unfold k0_pay3
  rw [shapeCast_self]
  exact Ideal.ofBits_zero_f32

/-- Gate 0's addend at point `n = 16·j + s`, entry `(p, q)` of the tile: reduction tile `s`'s part of the two row products at column `256·j + q`. -/
theorem addend_g0 (c : Dev nD) (n : ℕ) (hn : n < cfg0.N) (p : Fin 4096) (q : Fin 256) (Q : Fin 2048)
    (hQ : Q.val = 256 * (n / 16) + q.val) (s : Fin 16) (hs : s.val = n % 16) :
    addend m c n (ix3 (0 : Fin 4) p q) = tileDot (m ((c : Thread nD τ).loc main_arg0)) (m ((c : Thread nD τ).loc main_arg1)) (m ((c : Thread nD τ).loc main_arg3)) (m ((c : Thread nD τ).loc main_arg5)) p Q s := by
  unfold addend
  rw [dif_pos hn]
  unfold gateTile tile2 tileDot
  refine congrArg₂ (· + ·)
    (Finset.sum_congr rfl fun r _ => congrArg₂ (· * ·) (x_blk m c ⟨n, hn⟩ p r (col s r) ?_) (w2_blk m c ⟨n, hn⟩ q r Q (col s r) hQ ?_))
    (Finset.sum_congr rfl fun r _ => congrArg₂ (· * ·) (h_blk m c ⟨n, hn⟩ p r (col s r) ?_) (w6_blk m c ⟨n, hn⟩ q r Q (col s r) hQ ?_))
  all_goals (show 128 * s.val + r.val = 128 * (n % 16) + r.val; rw [hs])

/-- Gate 1's addend at point `n = 16·j + s`, entry `(p, q)` of the tile: reduction tile `s`'s part of the two row products at column `256·j + q`. -/
theorem addend_g1 (c : Dev nD) (n : ℕ) (hn : n < cfg0.N) (p : Fin 4096) (q : Fin 256) (Q : Fin 2048)
    (hQ : Q.val = 256 * (n / 16) + q.val) (s : Fin 16) (hs : s.val = n % 16) :
    addend m c n (ix3 (1 : Fin 4) p q) = tileDot (m ((c : Thread nD τ).loc main_arg0)) (m ((c : Thread nD τ).loc main_arg1)) (m ((c : Thread nD τ).loc main_arg7)) (m ((c : Thread nD τ).loc main_arg9)) p Q s := by
  unfold addend
  rw [dif_pos hn]
  unfold gateTile tile2 tileDot
  refine congrArg₂ (· + ·)
    (Finset.sum_congr rfl fun r _ => congrArg₂ (· * ·) (x_blk m c ⟨n, hn⟩ p r (col s r) ?_) (w3_blk m c ⟨n, hn⟩ q r Q (col s r) hQ ?_))
    (Finset.sum_congr rfl fun r _ => congrArg₂ (· * ·) (h_blk m c ⟨n, hn⟩ p r (col s r) ?_) (w7_blk m c ⟨n, hn⟩ q r Q (col s r) hQ ?_))
  all_goals (show 128 * s.val + r.val = 128 * (n % 16) + r.val; rw [hs])

/-- Gate 2's addend at point `n = 16·j + s`, entry `(p, q)` of the tile: reduction tile `s`'s part of the two row products at column `256·j + q`. -/
theorem addend_g2 (c : Dev nD) (n : ℕ) (hn : n < cfg0.N) (p : Fin 4096) (q : Fin 256) (Q : Fin 2048)
    (hQ : Q.val = 256 * (n / 16) + q.val) (s : Fin 16) (hs : s.val = n % 16) :
    addend m c n (ix3 (2 : Fin 4) p q) = tileDot (m ((c : Thread nD τ).loc main_arg0)) (m ((c : Thread nD τ).loc main_arg1)) (m ((c : Thread nD τ).loc main_arg11)) (m ((c : Thread nD τ).loc main_arg13)) p Q s := by
  unfold addend
  rw [dif_pos hn]
  unfold gateTile tile2 tileDot
  refine congrArg₂ (· + ·)
    (Finset.sum_congr rfl fun r _ => congrArg₂ (· * ·) (x_blk m c ⟨n, hn⟩ p r (col s r) ?_) (w4_blk m c ⟨n, hn⟩ q r Q (col s r) hQ ?_))
    (Finset.sum_congr rfl fun r _ => congrArg₂ (· * ·) (h_blk m c ⟨n, hn⟩ p r (col s r) ?_) (w8_blk m c ⟨n, hn⟩ q r Q (col s r) hQ ?_))
  all_goals (show 128 * s.val + r.val = 128 * (n % 16) + r.val; rw [hs])

/-- Gate 3's addend at point `n = 16·j + s`, entry `(p, q)` of the tile: reduction tile `s`'s part of the two row products at column `256·j + q`. -/
theorem addend_g3 (c : Dev nD) (n : ℕ) (hn : n < cfg0.N) (p : Fin 4096) (q : Fin 256) (Q : Fin 2048)
    (hQ : Q.val = 256 * (n / 16) + q.val) (s : Fin 16) (hs : s.val = n % 16) :
    addend m c n (ix3 (3 : Fin 4) p q) = tileDot (m ((c : Thread nD τ).loc main_arg0)) (m ((c : Thread nD τ).loc main_arg1)) (m ((c : Thread nD τ).loc main_arg15)) (m ((c : Thread nD τ).loc main_arg17)) p Q s := by
  unfold addend
  rw [dif_pos hn]
  unfold gateTile tile2 tileDot
  refine congrArg₂ (· + ·)
    (Finset.sum_congr rfl fun r _ => congrArg₂ (· * ·) (x_blk m c ⟨n, hn⟩ p r (col s r) ?_) (w5_blk m c ⟨n, hn⟩ q r Q (col s r) hQ ?_))
    (Finset.sum_congr rfl fun r _ => congrArg₂ (· * ·) (h_blk m c ⟨n, hn⟩ p r (col s r) ?_) (w9_blk m c ⟨n, hn⟩ q r Q (col s r) hQ ?_))
  all_goals (show 128 * s.val + r.val = 128 * (n % 16) + r.val; rw [hs])

/-- At the last reduction step of output tile `j`, gate 0's slab plus its bias row is the gate's pre-activation. -/
theorem gate_pre_0 (c : Dev nD) (t : Fin cfg0.N) (h15 : t.val % 16 = 15) (p : Fin 4096) (q : Fin 256) (Q : Fin 2048)
    (hQ : Q.val = 256 * (t.val / 16) + q.val) :
    HAdd.hAdd (α := EReal) (β := EReal) (γ := EReal) ((outsAt0 m c t.val t.isLt).2.2 (ix3 (0 : Fin 4) p q))
        (iblk m c 10 t (ix2 (0 : Fin 1) q))
      = pre (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) p Q := by
  have hN : cfg0.N = 128 := N_0
  have ht : t.val < 128 := hN ▸ t.isLt
  have hsum : ∑ s : Fin 16, addend m c (16 * (t.val / 16) + s.val) (ix3 (0 : Fin 4) p q)
      = ∑ s : Fin 16, tileDot (m ((c : Thread nD τ).loc main_arg0)) (m ((c : Thread nD τ).loc main_arg1)) (m ((c : Thread nD τ).loc main_arg3)) (m ((c : Thread nD τ).loc main_arg5)) p Q s :=
    Finset.sum_congr rfl fun s _ => addend_g0 m c (16 * (t.val / 16) + s.val)
      (by have := s.isLt; omega) p q Q (by rw [hQ]; have := s.isLt; omega) s (by have := s.isLt; omega)
  rw [scratch_at m c t (ix3 (0 : Fin 4) p q), pay3_zero, b10_blk m c t 0 q Q hQ, h15, Finset.sum_range]
  exact (congrArg (fun z : EReal => (0 + z) + HAdd.hAdd (α := EReal) (β := EReal) (γ := EReal) ((m ((c : Thread nD τ).loc main_arg4)) (ix1 Q)) ((m ((c : Thread nD τ).loc main_arg6)) (ix1 Q))) hsum).trans
    (pre_eq_tiles (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) p Q)

/-- At the last reduction step of output tile `j`, gate 1's slab plus its bias row is the gate's pre-activation. -/
theorem gate_pre_1 (c : Dev nD) (t : Fin cfg0.N) (h15 : t.val % 16 = 15) (p : Fin 4096) (q : Fin 256) (Q : Fin 2048)
    (hQ : Q.val = 256 * (t.val / 16) + q.val) :
    HAdd.hAdd (α := EReal) (β := EReal) (γ := EReal) ((outsAt0 m c t.val t.isLt).2.2 (ix3 (1 : Fin 4) p q))
        (iblk m c 11 t (ix2 (0 : Fin 1) q))
      = pre (m ((c : Thread nD τ).loc main_arg0)) (m ((c : Thread nD τ).loc main_arg1)) (m ((c : Thread nD τ).loc main_arg7)) (m ((c : Thread nD τ).loc main_arg8)) (m ((c : Thread nD τ).loc main_arg9)) (m ((c : Thread nD τ).loc main_arg10)) p Q := by
  have hN : cfg0.N = 128 := N_0
  have ht : t.val < 128 := hN ▸ t.isLt
  have hsum : ∑ s : Fin 16, addend m c (16 * (t.val / 16) + s.val) (ix3 (1 : Fin 4) p q)
      = ∑ s : Fin 16, tileDot (m ((c : Thread nD τ).loc main_arg0)) (m ((c : Thread nD τ).loc main_arg1)) (m ((c : Thread nD τ).loc main_arg7)) (m ((c : Thread nD τ).loc main_arg9)) p Q s :=
    Finset.sum_congr rfl fun s _ => addend_g1 m c (16 * (t.val / 16) + s.val)
      (by have := s.isLt; omega) p q Q (by rw [hQ]; have := s.isLt; omega) s (by have := s.isLt; omega)
  rw [scratch_at m c t (ix3 (1 : Fin 4) p q), pay3_zero, b11_blk m c t 0 q Q hQ, h15, Finset.sum_range]
  exact (congrArg (fun z : EReal => (0 + z) + HAdd.hAdd (α := EReal) (β := EReal) (γ := EReal) ((m ((c : Thread nD τ).loc main_arg8)) (ix1 Q)) ((m ((c : Thread nD τ).loc main_arg10)) (ix1 Q))) hsum).trans
    (pre_eq_tiles (m ((c : Thread nD τ).loc main_arg0)) (m ((c : Thread nD τ).loc main_arg1)) (m ((c : Thread nD τ).loc main_arg7)) (m ((c : Thread nD τ).loc main_arg8)) (m ((c : Thread nD τ).loc main_arg9)) (m ((c : Thread nD τ).loc main_arg10)) p Q)

/-- At the last reduction step of output tile `j`, gate 2's slab plus its bias row is the gate's pre-activation. -/
theorem gate_pre_2 (c : Dev nD) (t : Fin cfg0.N) (h15 : t.val % 16 = 15) (p : Fin 4096) (q : Fin 256) (Q : Fin 2048)
    (hQ : Q.val = 256 * (t.val / 16) + q.val) :
    HAdd.hAdd (α := EReal) (β := EReal) (γ := EReal) ((outsAt0 m c t.val t.isLt).2.2 (ix3 (2 : Fin 4) p q))
        (iblk m c 12 t (ix2 (0 : Fin 1) q))
      = pre (m ((c : Thread nD τ).loc main_arg0)) (m ((c : Thread nD τ).loc main_arg1)) (m ((c : Thread nD τ).loc main_arg11)) (m ((c : Thread nD τ).loc main_arg12)) (m ((c : Thread nD τ).loc main_arg13)) (m ((c : Thread nD τ).loc main_arg14)) p Q := by
  have hN : cfg0.N = 128 := N_0
  have ht : t.val < 128 := hN ▸ t.isLt
  have hsum : ∑ s : Fin 16, addend m c (16 * (t.val / 16) + s.val) (ix3 (2 : Fin 4) p q)
      = ∑ s : Fin 16, tileDot (m ((c : Thread nD τ).loc main_arg0)) (m ((c : Thread nD τ).loc main_arg1)) (m ((c : Thread nD τ).loc main_arg11)) (m ((c : Thread nD τ).loc main_arg13)) p Q s :=
    Finset.sum_congr rfl fun s _ => addend_g2 m c (16 * (t.val / 16) + s.val)
      (by have := s.isLt; omega) p q Q (by rw [hQ]; have := s.isLt; omega) s (by have := s.isLt; omega)
  rw [scratch_at m c t (ix3 (2 : Fin 4) p q), pay3_zero, b12_blk m c t 0 q Q hQ, h15, Finset.sum_range]
  exact (congrArg (fun z : EReal => (0 + z) + HAdd.hAdd (α := EReal) (β := EReal) (γ := EReal) ((m ((c : Thread nD τ).loc main_arg12)) (ix1 Q)) ((m ((c : Thread nD τ).loc main_arg14)) (ix1 Q))) hsum).trans
    (pre_eq_tiles (m ((c : Thread nD τ).loc main_arg0)) (m ((c : Thread nD τ).loc main_arg1)) (m ((c : Thread nD τ).loc main_arg11)) (m ((c : Thread nD τ).loc main_arg12)) (m ((c : Thread nD τ).loc main_arg13)) (m ((c : Thread nD τ).loc main_arg14)) p Q)

/-- At the last reduction step of output tile `j`, gate 3's slab plus its bias row is the gate's pre-activation. -/
theorem gate_pre_3 (c : Dev nD) (t : Fin cfg0.N) (h15 : t.val % 16 = 15) (p : Fin 4096) (q : Fin 256) (Q : Fin 2048)
    (hQ : Q.val = 256 * (t.val / 16) + q.val) :
    HAdd.hAdd (α := EReal) (β := EReal) (γ := EReal) ((outsAt0 m c t.val t.isLt).2.2 (ix3 (3 : Fin 4) p q))
        (iblk m c 13 t (ix2 (0 : Fin 1) q))
      = pre (m ((c : Thread nD τ).loc main_arg0)) (m ((c : Thread nD τ).loc main_arg1)) (m ((c : Thread nD τ).loc main_arg15)) (m ((c : Thread nD τ).loc main_arg16)) (m ((c : Thread nD τ).loc main_arg17)) (m ((c : Thread nD τ).loc main_arg18)) p Q := by
  have hN : cfg0.N = 128 := N_0
  have ht : t.val < 128 := hN ▸ t.isLt
  have hsum : ∑ s : Fin 16, addend m c (16 * (t.val / 16) + s.val) (ix3 (3 : Fin 4) p q)
      = ∑ s : Fin 16, tileDot (m ((c : Thread nD τ).loc main_arg0)) (m ((c : Thread nD τ).loc main_arg1)) (m ((c : Thread nD τ).loc main_arg15)) (m ((c : Thread nD τ).loc main_arg17)) p Q s :=
    Finset.sum_congr rfl fun s _ => addend_g3 m c (16 * (t.val / 16) + s.val)
      (by have := s.isLt; omega) p q Q (by rw [hQ]; have := s.isLt; omega) s (by have := s.isLt; omega)
  rw [scratch_at m c t (ix3 (3 : Fin 4) p q), pay3_zero, b13_blk m c t 0 q Q hQ, h15, Finset.sum_range]
  exact (congrArg (fun z : EReal => (0 + z) + HAdd.hAdd (α := EReal) (β := EReal) (γ := EReal) ((m ((c : Thread nD τ).loc main_arg16)) (ix1 Q)) ((m ((c : Thread nD τ).loc main_arg18)) (ix1 Q))) hsum).trans
    (pre_eq_tiles (m ((c : Thread nD τ).loc main_arg0)) (m ((c : Thread nD τ).loc main_arg1)) (m ((c : Thread nD τ).loc main_arg15)) (m ((c : Thread nD τ).loc main_arg16)) (m ((c : Thread nD τ).loc main_arg17)) (m ((c : Thread nD τ).loc main_arg18)) p Q)

/-- At the last reduction step, the four updates over what the step before left are what this step leaves. -/
theorem acc_eq (c : Dev nD) (t : Fin cfg0.N) (h0 : ¬ t.val % 16 = 0) (h1 : t.val % 16 = 15) :
    View.canon (stores (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2) = (outsAt0 m c t.val t.isLt).2.2 := by
  have e := congrArg (fun z => z.2.2) (outsAt0_C m c t h0 h1)
  dsimp only at e
  rw [e]
  exact (soutC_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2).symm

/-- The epilogue's cell state at the last reduction step of tile `t / 16` is the specification's, at column `256·(t / 16) + q`. -/
theorem cell_flush (c : Dev nD) (t : Fin cfg0.N) (h15 : t.val % 16 = 15) (p : Fin 4096) (q : Fin 256) (Q : Fin 2048)
    (hQ : Q.val = 256 * (t.val / 16) + q.val) :
    cellVal ((outsAt0 m c t.val t.isLt).2.2) (iblk m c 10 t) (iblk m c 11 t) (iblk m c 12 t) (iblk m c 14 t) p q
      = cellAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) p Q := by
  unfold cellVal cellAt
  rw [gate_pre_0 m c t h15 p q Q hQ, gate_pre_1 m c t h15 p q Q hQ, gate_pre_2 m c t h15 p q Q hQ, c_blk m c t p q Q hQ]

/-- The epilogue's hidden state likewise. -/
theorem hidden_flush (c : Dev nD) (t : Fin cfg0.N) (h15 : t.val % 16 = 15) (p : Fin 4096) (q : Fin 256) (Q : Fin 2048)
    (hQ : Q.val = 256 * (t.val / 16) + q.val) :
    hiddenVal ((outsAt0 m c t.val t.isLt).2.2) (iblk m c 10 t) (iblk m c 11 t) (iblk m c 12 t) (iblk m c 13 t) (iblk m c 14 t) p q
      = hiddenAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) p Q := by
  unfold hiddenVal hiddenAt
  rw [gate_pre_3 m c t h15 p q Q hQ, cell_flush m c t h15 p q Q hQ]

/-- Entry `(p, q)` of an output block at point `t` sits at `(p, 256·(t / 16) + q)` of the array. -/
theorem out_emb15 (t : Fin cfg0.N) (p : Fin 4096) (q : Fin 256) (Q : Fin 2048) (hQ : Q.val = 256 * (t.val / 16) + q.val) :
    ((cfg0.win 15).blk t).view.emb (ix2 p q) = ix2 p Q := funext fun a => Fin.ext (by
  obtain ⟨-, -, -, -, -, -, -, -, -, -, e0, e1, -, -⟩ := idx_out t
  match a with
  | ⟨0, _⟩ => show win0_15.index t (0 : Fin 2) * 4096 + 1 * p.val = p.val; rw [e0]; omega
  | ⟨1, _⟩ => show win0_15.index t (1 : Fin 2) * 256 + 1 * q.val = Q.val; rw [e1, hQ]; omega)

theorem out_emb16 (t : Fin cfg0.N) (p : Fin 4096) (q : Fin 256) (Q : Fin 2048) (hQ : Q.val = 256 * (t.val / 16) + q.val) :
    ((cfg0.win 16).blk t).view.emb (ix2 p q) = ix2 p Q := funext fun a => Fin.ext (by
  obtain ⟨-, -, -, -, -, -, -, -, -, -, -, -, e0, e1⟩ := idx_out t
  match a with
  | ⟨0, _⟩ => show win0_16.index t (0 : Fin 2) * 4096 + 1 * p.val = p.val; rw [e0]; omega
  | ⟨1, _⟩ => show win0_16.index t (1 : Fin 2) * 256 + 1 * q.val = Q.val; rw [e1, hQ]; omega)

/-- What a write-back of the first output writes is its block of the specification's hidden state. -/
theorem flushed15_eq (c : Dev nD) (t : Fin cfg0.N) (hf : (cfg0.win 15).flush t = true) :
    (dats m 0 c).flushed 15 t = ((cfg0.win 15).blk t).view.read (Elt Ideal) (hiddenOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) := by
  have hN : cfg0.N = 128 := N_0
  have ht : t.val < 128 := hN ▸ t.isLt
  have h1 : t.val % 16 = 15 := (flush0_15 t).mp hf
  have h0 : ¬ t.val % 16 = 0 := by omega
  rw [flushed15_C m c t h0 h1]
  funext y
  obtain ⟨p, q, rfl⟩ : ∃ (p : Fin 4096) (q : Fin 256), y = ix2 p q := ⟨y 0, y 1, eq_ix2 y⟩
  show out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2 (ix2 p q)
    = hiddenOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (((cfg0.win 15).blk t).view.emb (ix2 p q))
  rw [out15C_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2]
  refine (out15_val _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2 p q).trans ?_
  rw [acc_eq m c t h0 h1,
    hidden_flush m c t h1 p q ⟨256 * (t.val / 16) + q.val, by have := q.isLt; omega⟩ rfl,
    out_emb15 t p q ⟨256 * (t.val / 16) + q.val, by have := q.isLt; omega⟩ rfl]
  rfl

/-- What a write-back of the second output writes is its block of the specification's cell state. -/
theorem flushed16_eq (c : Dev nD) (t : Fin cfg0.N) (hf : (cfg0.win 16).flush t = true) :
    (dats m 0 c).flushed 16 t = ((cfg0.win 16).blk t).view.read (Elt Ideal) (cellOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  have hN : cfg0.N = 128 := N_0
  have ht : t.val < 128 := hN ▸ t.isLt
  have h1 : t.val % 16 = 15 := (flush0_16 t).mp hf
  have h0 : ¬ t.val % 16 = 0 := by omega
  rw [flushed16_C m c t h0 h1]
  funext y
  obtain ⟨p, q, rfl⟩ : ∃ (p : Fin 4096) (q : Fin 256), y = ix2 p q := ⟨y 0, y 1, eq_ix2 y⟩
  show out0_C_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2 (ix2 p q)
    = cellOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (((cfg0.win 16).blk t).view.emb (ix2 p q))
  rw [out16C_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2]
  refine (out16_val _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 14 t) (outsAt0 m c (t.val - 1) (Nat.lt_of_le_of_lt (Nat.sub_le _ _) t.isLt)).2.2 p q).trans ?_
  rw [acc_eq m c t h0 h1,
    cell_flush m c t h1 p q ⟨256 * (t.val / 16) + q.val, by have := q.isLt; omega⟩ rfl,
    out_emb16 t p q ⟨256 * (t.val / 16) + q.val, by have := q.isLt; omega⟩ rfl]
  rfl

/-- An entry is in output window 15's block at point `t` iff each coordinate is in the block's range on its axis. -/
theorem mem_blk15 (t : Fin cfg0.N) (i : S4096x2048.Idx) :
    i ∈ ((cfg0.win 15).blk t).view.set ↔ ∀ a : Fin 2, win0_15.index t a * S4096x256.size a ≤ (i a).val ∧ (i a).val < win0_15.index t a * S4096x256.size a + S4096x256.size a := by
  show i ∈ ((View.whole main_v8_0).slice (win0_15.rect t)).set ↔ _
  rw [View.set_slice_whole, Rect.mem_set_unit]
  exact Iff.rfl

/-- An entry is in output window 16's block at point `t` iff each coordinate is in the block's range on its axis. -/
theorem mem_blk16 (t : Fin cfg0.N) (i : S4096x2048.Idx) :
    i ∈ ((cfg0.win 16).blk t).view.set ↔ ∀ a : Fin 2, win0_16.index t a * S4096x256.size a ≤ (i a).val ∧ (i a).val < win0_16.index t a * S4096x256.size a + S4096x256.size a := by
  show i ∈ ((View.whole main_v8_1).slice (win0_16.rect t)).set ↔ _
  rw [View.set_slice_whole, Rect.mem_set_unit]
  exact Iff.rfl

/-- Every entry of the first result lies in the block some write-back covers: column `k` in tile `k / 256`'s. -/
theorem cover15 (i : S4096x2048.Idx) :
    ∃ t : Fin cfg0.N, (cfg0.win 15).flush t = true ∧ i ∈ ((cfg0.win 15).blk t).view.set := by
  have hN : cfg0.N = 128 := N_0
  have hi0 : (i 0).val < 4096 := (i 0).isLt
  have hi1 : (i 1).val < 2048 := (i 1).isLt
  have hlt : 16 * ((i 1).val / 256) + 15 < cfg0.N := by omega
  refine ⟨⟨16 * ((i 1).val / 256) + 15, hlt⟩, (flush0_15 _).mpr (by show (16 * ((i 1).val / 256) + 15) % 16 = 15; omega), ?_⟩
  rw [mem_blk15]
  obtain ⟨-, -, -, -, -, -, -, -, -, -, e0, e1, -, -⟩ := idx_out ⟨16 * ((i 1).val / 256) + 15, hlt⟩
  intro a
  match a with
  | ⟨0, _⟩ =>
    show win0_15.index _ (0 : Fin 2) * 4096 ≤ (i 0).val ∧ (i 0).val < win0_15.index _ (0 : Fin 2) * 4096 + 4096
    rw [e0]; omega
  | ⟨1, _⟩ =>
    show win0_15.index _ (1 : Fin 2) * 256 ≤ (i 1).val ∧ (i 1).val < win0_15.index _ (1 : Fin 2) * 256 + 256
    rw [e1]
    show (16 * ((i 1).val / 256) + 15) / 16 * 256 ≤ (i 1).val ∧ (i 1).val < (16 * ((i 1).val / 256) + 15) / 16 * 256 + 256
    omega

/-- Likewise for the second result. -/
theorem cover16 (i : S4096x2048.Idx) :
    ∃ t : Fin cfg0.N, (cfg0.win 16).flush t = true ∧ i ∈ ((cfg0.win 16).blk t).view.set := by
  have hN : cfg0.N = 128 := N_0
  have hi0 : (i 0).val < 4096 := (i 0).isLt
  have hi1 : (i 1).val < 2048 := (i 1).isLt
  have hlt : 16 * ((i 1).val / 256) + 15 < cfg0.N := by omega
  refine ⟨⟨16 * ((i 1).val / 256) + 15, hlt⟩, (flush0_16 _).mpr (by show (16 * ((i 1).val / 256) + 15) % 16 = 15; omega), ?_⟩
  rw [mem_blk16]
  obtain ⟨-, -, -, -, -, -, -, -, -, -, -, -, e0, e1⟩ := idx_out ⟨16 * ((i 1).val / 256) + 15, hlt⟩
  intro a
  match a with
  | ⟨0, _⟩ =>
    show win0_16.index _ (0 : Fin 2) * 4096 ≤ (i 0).val ∧ (i 0).val < win0_16.index _ (0 : Fin 2) * 4096 + 4096
    rw [e0]; omega
  | ⟨1, _⟩ =>
    show win0_16.index _ (1 : Fin 2) * 256 ≤ (i 1).val ∧ (i 1).val < win0_16.index _ (1 : Fin 2) * 256 + 256
    rw [e1]
    show (16 * ((i 1).val / 256) + 15) / 16 * 256 ≤ (i 1).val ∧ (i 1).val < (16 * ((i 1).val / 256) + 15) / 16 * 256 + 256
    omega

/-- After the run the first result holds the specification's hidden state. -/
theorem final15 (c : Dev nD) : (dats m 0 c).arrAt 15 cfg0.N = hiddenOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  (dats m 0 c).arrAt_eq_of_cover 15 (hiddenOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) (fun t hf => flushed15_eq m c t hf) cover15

/-- … and the second the specification's cell state. -/
theorem final16 (c : Dev nD) : (dats m 0 c).arrAt 16 cfg0.N = cellOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (dats m 0 c).arrAt_eq_of_cover 16 (cellOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (fun t hf => flushed16_eq m c t hf) cover16

/-- The kernel's run: both results at the specification's arrays, the arguments unchanged. -/
theorem run : θ_run defs (onTc (τ := τ) (main (F := Ideal))) ⟨m, fun _ => 0, ρ⟩ fun r => ∀ c : Dev nD,
      r.2.mem ((c : Thread nD τ).loc main_v8_0) = hiddenOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
      ∧ r.2.mem ((c : Thread nD τ).loc main_v8_1) = cellOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨(h c).1.trans (final15 m c), (h c).2.1.trans (final16 m c), (h c).2.2⟩)
    (run_blocks m ρ)

end Cert.Lstm.Final

end
-- ==== Proof.lean ====
/-
  An LSTM cell computed by one tiled kernel, against the plain formula.

  The kernel walks an 8 × 16 grid: output tile `j` (256 of the 2048 hidden columns) and reduction tile `s` (128 of the 2048
  contracted columns). Per gate it keeps a [4096, 256] accumulator slab, zeroed at `s = 0`, to which every step adds the two
  partial row products `x·wxᵀ` and `h·whᵀ` over the step's 128 columns; at `s = 15` it adds the gate's bias row (the sum
  `bx + bh`, formed before the call), applies the logistic function or `tanh`, and writes `c' = f·c + i·g` and
  `h' = o·tanh c'` to the tile's columns of the two results. The reference computes, per gate, `(x·wxᵀ + bx) + (h·whᵀ + bh)`
  in one piece, spells the logistic function out as `1 / (1 + e^(−z))`, and forms the same `c'` and `h'`.

  On the extended reals the two agree entry by entry: narrowing to bf16 is the identity, the matrix unit and the host's
  product are the same finite sums, the logistic function is by definition `1 / (1 + e^(−z))`, and the kernel's grouping of
  a gate's pre-activation — sixteen partial sums from a zero start, then the biases' sum — is the reference's grouping
  rearranged, which addition's commutativity and associativity allow whatever the terms are. So the precondition is not used.

  Modules: `Spec` (the cell as a function of the arrays; the regrouping law), `RefSide` (the reference is that function),
  `Payload` and `Slabs` (the body's arithmetic and its slab stores at an entry), `Pieces` (what each control case leaves),
  `Accum` (the accumulator over a run of steps), `BlockReads` (the windows' blocks in the argument arrays), `Final` (the two
  result arrays after the run).
-/
import proofs.«181231_j81518479278547_2_alg».proof.Defs
import proofs.«181231_j81518479278547_2_alg».proof.Proof.Gen.Kernel
import proofs.«181231_j81518479278547_2_alg».proof.Proof.Gen.Kernel.Skeleton
import proofs.«181231_j81518479278547_2_alg».proof.Proof.Gen.Kernel.Launch
import proofs.«181231_j81518479278547_2_alg».proof.Proof.Gen.Kernel.Points
import proofs.«181231_j81518479278547_2_alg».proof.Proof.Gen.Kernel.Frame
import proofs.«181231_j81518479278547_2_alg».proof.Proof.Gen.KernelIdeal
import proofs.«181231_j81518479278547_2_alg».proof.Proof.Gen.KernelIdeal.Skeleton
import proofs.«181231_j81518479278547_2_alg».proof.Proof.Gen.KernelIdeal.Launch
import proofs.«181231_j81518479278547_2_alg».proof.Proof.Gen.KernelIdeal.Points
import proofs.«181231_j81518479278547_2_alg».proof.Proof.Gen.KernelIdeal.Frame
import proofs.«181231_j81518479278547_2_alg».proof.Proof.Gen.ReferenceIdeal
import proofs.«181231_j81518479278547_2_alg».proof.Proof.Gen.Pre_finite_inputs
import proofs.«181231_j81518479278547_2_alg».proof.Proof.Gen.KernelIdeal.Value
import proofs.«181231_j81518479278547_2_alg».proof.Proof.Gen.ReferenceIdeal.Run
import proofs.«181231_j81518479278547_2_alg».proof.Proof.Gen.ReferenceIdeal.Read
import proofs.«181231_j81518479278547_2_alg».proof.Proof.RefSide
import proofs.«181231_j81518479278547_2_alg».proof.Proof.Final
import Idealize.ShloMosaic.Adequacy
import Idealize.ShloMosaic.Init

noncomputable section

namespace Cert.Proof

open Idealize.ShloMosaic Idealize.SL.Sem Cert.Lstm

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments as they were: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the specification's hidden and cell states. -/
theorem algebraic : Cert.algebraic_KernelIdeal_ReferenceIdeal := by
  intro m ρ m' ρ' _ hagree
  refine ⟨fun c => hiddenOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), fun c => cellOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), Cert.Lstm.Final.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14, a15, a16, a17, a18⟩ := hagree c
  refine ⟨(h c).1.trans ?_, (h c).2.1.trans ?_, (h c).2.2⟩
  · exact (Cert.ReferenceIdeal.Read.val_main_v67_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))).trans
      (Cert.Lstm.Ref.hidden_eq_of a0 a1 a2 a3 a4 a5 a6 a7 a8 a9 a10 a11 a12 a13 a14 a15 a16 a17 a18)
  · exact (Cert.ReferenceIdeal.Read.val_main_v65_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14))).trans
      (Cert.Lstm.Ref.cell_eq_of a0 a1 a2 a3 a4 a5 a6 a7 a8 a9 a10 a11 a12 a13 a14)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
